-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S2x64 .f32) (main_arg7 : FVec F S64x64 .f32) (main_arg8 : FVec F S64 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64 .f32 := Host.absf main_arg6
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S2x64x64 .f32) (main_arg6 : FVec F S2x64 .f32) (main_arg7 : FVec F S64x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64x64 .f32 := Host.absf main_arg5
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S64x64 : Shape := ⟨2, ![64, 64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S1x64x64 : Shape := ⟨3, ![1, 64, 64]⟩
abbrev S256 : Shape := ⟨1, ![256]⟩
abbrev S100000x1 : Shape := ⟨2, ![100000, 1]⟩
abbrev S256x64 : Shape := ⟨2, ![256, 64]⟩
abbrev S256x1 : Shape := ⟨2, ![256, 1]⟩

abbrev nBuf : Space → Nat
  | .hbm => 137
  | .vmem => 19
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S2x64x64, .f32⟩
  | 6 => ⟨S2x64, .f32⟩
  | 7 => ⟨S64x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S1700000x1, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S1x64x64, .f32⟩
  | 70 => ⟨S64x64, .f32⟩
  | 71 => ⟨S1x64, .f32⟩
  | 72 => ⟨S64, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x64, .f32⟩
  | 83 => ⟨S1700000x64, .f32⟩
  | 84 => ⟨S1700000x64, .f32⟩
  | 85 => ⟨S_, .f32⟩
  | 86 => ⟨S100000x64, .f32⟩
  | 87 => ⟨S1700000x1, .i32⟩
  | 88 => ⟨S100000x64, .f32⟩
  | 89 => ⟨S1x64, .f32⟩
  | 90 => ⟨S100000x64, .f32⟩
  | 91 => ⟨S100000x64, .f32⟩
  | 92 => ⟨S1x64x64, .f32⟩
  | 93 => ⟨S64x64, .f32⟩
  | 94 => ⟨S1x64, .f32⟩
  | 95 => ⟨S64, .f32⟩
  | 96 => ⟨S100000x64, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x64, .f32⟩
  | 107 => ⟨S1700000x64, .f32⟩
  | 108 => ⟨S_, .f32⟩
  | 109 => ⟨S100000x64, .f32⟩
  | 110 => ⟨S1700000x1, .i32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S_, .f32⟩
  | 119 => ⟨S100000, .f32⟩
  | 120 => ⟨S_, .f32⟩
  | 121 => ⟨S256, .f32⟩
  | 122 => ⟨S100000x1, .i32⟩
  | 123 => ⟨S256, .f32⟩
  | 124 => ⟨S_, .f32⟩
  | 125 => ⟨S256x64, .f32⟩
  | 126 => ⟨S100000x1, .i32⟩
  | 127 => ⟨S256x64, .f32⟩
  | _ => ⟨S100000x128, .f32⟩

abbrev hbmTy0_1 (i : Nat) : BufTy := match i % 128 with
  | 0 => ⟨S_, .f32⟩
  | 1 => ⟨S_, .f32⟩
  | 2 => ⟨S256, .f32⟩
  | 3 => ⟨S256, .f32⟩
  | 4 => ⟨S256x1, .f32⟩
  | 5 => ⟨S256x64, .f32⟩
  | 6 => ⟨S256x64, .f32⟩
  | 7 => ⟨S1x64, .f32⟩
  | 8 => ⟨S256x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S256x64, .f32⟩
  | .local _ .vmem, ⟨16, _⟩ => ⟨S64x64, .f32⟩
  | .local _ .vmem, ⟨17, _⟩ => ⟨S1x64, .f32⟩
  | .local _ .vmem, ⟨18, _⟩ => ⟨S256x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_12 : Ref sig .tc := ⟨.hbm, 97, rfl⟩
abbrev main_v72 : Ref sig .tc := ⟨.hbm, 98, rfl⟩
abbrev main_v73 : Ref sig .tc := ⟨.hbm, 99, rfl⟩
abbrev main_c_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_call1_cst : Ref sig .tc := ⟨.hbm, 115, rfl⟩
abbrev main_call1_v0 : Ref sig .tc := ⟨.hbm, 116, rfl⟩
abbrev main_v87 : Ref sig .tc := ⟨.hbm, 117, rfl⟩
abbrev main_cst_15 : Ref sig .tc := ⟨.hbm, 118, rfl⟩
abbrev main_v88 : Ref sig .tc := ⟨.hbm, 119, rfl⟩
abbrev main_cst_16 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_17 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_18 : Ref sig .tc := ⟨.hbm, 128, rfl⟩
abbrev main_call2_v0 : Ref sig .tc := ⟨.hbm, 129, rfl⟩
abbrev main_call2_v1 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc3_sem3_0 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x64x64_S1x64x64_1_0_0 : S2x64x64.Slices ![1, 0, 0] S1x64x64
  slices_S2x64_S1x64_1_0 : S2x64.Slices ![1, 0] S1x64
  bcast_S_S256 : S_.BroadcastsInDim S256 (![] : Fin 0 → Fin S256.rank)
  bcast_S100000_S100000x1_0 : S100000.BroadcastsInDim S100000x1 (![0] : Fin 1 → Fin S100000x1.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S64_S1x64 : S64.ShapeCasts S1x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  scatter_S256_S100000x1_S100000_n_0_0_1_wf : ScatterDims.WF S256 S100000x1 S100000 [] [0] [0] 1
  scatter_S256x64_S100000x1_S100000x64_1_0_0_1_wf : ScatterDims.WF S256x64 S100000x1 S100000x64 [1] [0] [0] 1
  dot_S256x64_S64x64_S256x64_1_0_0_1_n_n_wf : DotDims.WF S256x64 S64x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x64.size a ≤ S256x64.size a
  hwx3_0 : ∀ i : grid3.Coords, EltTy.bits .f32 = 32 ∨ (Rect.block (s := S256x64) S256x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x64.size a ≤ S256x64.size a
  hwx3_3 : ∀ i : grid3.Coords, EltTy.bits .f32 = 32 ∨ (Rect.block (s := S256x64) S256x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v98) S256x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v99) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v100) S256x64.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1x64x64 : Shape := ⟨3, ![1, 64, 64]⟩
abbrev S256 : Shape := ⟨1, ![256]⟩
abbrev S100000x1 : Shape := ⟨2, ![100000, 1]⟩
abbrev S256x64 : Shape := ⟨2, ![256, 64]⟩
abbrev S256x1 : Shape := ⟨2, ![256, 1]⟩

abbrev nBuf : Space → Nat
  | .hbm => 219
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S2x64x64, .f32⟩
  | 6 => ⟨S2x64, .f32⟩
  | 7 => ⟨S64x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S100000, .i32⟩
  | 15 => ⟨S1700000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S1x64x64, .f32⟩
  | 73 => ⟨S64x64, .f32⟩
  | 74 => ⟨S1x64, .f32⟩
  | 75 => ⟨S64, .f32⟩
  | 76 => ⟨S100000x64, .f32⟩
  | 77 => ⟨S100000, .i32⟩
  | 78 => ⟨S1700000, .i32⟩
  | 79 => ⟨S1700000, .i32⟩
  | 80 => ⟨S_, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000, .f32⟩
  | 112 => ⟨S1700000, .f32⟩
  | 113 => ⟨S1700000x1, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x64, .f32⟩
  | 123 => ⟨S1700000x64, .f32⟩
  | 124 => ⟨S1700000x64, .f32⟩
  | 125 => ⟨S_, .f32⟩
  | 126 => ⟨S100000x64, .f32⟩
  | 127 => ⟨S1700000x1, .i32⟩
  | _ => ⟨S100000x128, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S1x64x64, .f32⟩
  | 8 => ⟨S64x64, .f32⟩
  | 9 => ⟨S1x64, .f32⟩
  | 10 => ⟨S64, .f32⟩
  | 11 => ⟨S100000x64, .f32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S1700000x1, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S_, .f32⟩
  | 71 => ⟨S100000, .f32⟩
  | 72 => ⟨S_, .f32⟩
  | 73 => ⟨S256, .f32⟩
  | 74 => ⟨S100000x1, .i32⟩
  | 75 => ⟨S256, .f32⟩
  | 76 => ⟨S_, .f32⟩
  | 77 => ⟨S256x64, .f32⟩
  | 78 => ⟨S100000x1, .i32⟩
  | 79 => ⟨S256x64, .f32⟩
  | 80 => ⟨S_, .f32⟩
  | 81 => ⟨S_, .f32⟩
  | 82 => ⟨S256, .f32⟩
  | 83 => ⟨S256, .f32⟩
  | 84 => ⟨S256x1, .f32⟩
  | 85 => ⟨S256x64, .f32⟩
  | 86 => ⟨S256x64, .f32⟩
  | 87 => ⟨S256x64, .f32⟩
  | 88 => ⟨S1x64, .f32⟩
  | 89 => ⟨S256x64, .f32⟩
  | 90 => ⟨S256x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_17 : Ref sig .tc := ⟨.hbm, 114, rfl⟩
abbrev main_v80 : Ref sig .tc := ⟨.hbm, 115, rfl⟩
abbrev main_v81 : Ref sig .tc := ⟨.hbm, 116, rfl⟩
abbrev main_c_18 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call3_cst : Ref sig .tc := ⟨.hbm, 132, rfl⟩
abbrev main_call3_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_20 : Ref sig .tc := ⟨.hbm, 143, rfl⟩
abbrev main_v104 : Ref sig .tc := ⟨.hbm, 144, rfl⟩
abbrev main_cst_21 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_22 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_23 : Ref sig .tc := ⟨.hbm, 153, rfl⟩
abbrev main_call4_v0 : Ref sig .tc := ⟨.hbm, 154, rfl⟩
abbrev main_call4_v1 : Ref sig .tc := ⟨.hbm, 155, rfl⟩
abbrev main_v111 : Ref sig .tc := ⟨.hbm, 156, rfl⟩
abbrev main_c_24 : Ref sig .tc := ⟨.hbm, 157, rfl⟩
abbrev main_v112 : Ref sig .tc := ⟨.hbm, 158, rfl⟩
abbrev main_v113 : Ref sig .tc := ⟨.hbm, 159, rfl⟩
abbrev main_c_25 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_c_26 : Ref sig .tc := ⟨.hbm, 166, rfl⟩
abbrev main_v119 : Ref sig .tc := ⟨.hbm, 167, rfl⟩
abbrev main_v120 : Ref sig .tc := ⟨.hbm, 168, rfl⟩
abbrev main_c_27 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_c_28 : Ref sig .tc := ⟨.hbm, 177, rfl⟩
abbrev main_v128 : Ref sig .tc := ⟨.hbm, 178, rfl⟩
abbrev main_v129 : Ref sig .tc := ⟨.hbm, 179, rfl⟩
abbrev main_c_29 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_30 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_call5_cst : Ref sig .tc := ⟨.hbm, 195, rfl⟩
abbrev main_call5_v0 : Ref sig .tc := ⟨.hbm, 196, rfl⟩
abbrev main_v143 : Ref sig .tc := ⟨.hbm, 197, rfl⟩
abbrev main_cst_31 : Ref sig .tc := ⟨.hbm, 198, rfl⟩
abbrev main_v144 : Ref sig .tc := ⟨.hbm, 199, rfl⟩
abbrev main_cst_32 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_33 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_34 : Ref sig .tc := ⟨.hbm, 208, rfl⟩
abbrev main_call6_v0 : Ref sig .tc := ⟨.hbm, 209, rfl⟩
abbrev main_call6_v1 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  bcast_S_S256 : S_.BroadcastsInDim S256 (![] : Fin 0 → Fin S256.rank)
  bcast_S100000_S100000x1_0 : S100000.BroadcastsInDim S100000x1 (![0] : Fin 1 → Fin S100000x1.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1x64_S256x64_0_1 : S1x64.BroadcastsInDim S256x64 (![0, 1] : Fin 2 → Fin S256x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S256_S100000x1_S100000_n_0_0_1_wf : ScatterDims.WF S256 S100000x1 S100000 [] [0] [0] 1
  scatter_S256x64_S100000x1_S100000x64_1_0_0_1_wf : ScatterDims.WF S256x64 S100000x1 S100000x64 [1] [0] [0] 1
  dot_S256x64_S64x64_S256x64_1_0_0_1_n_n_wf : DotDims.WF S256x64 S64x64 S256x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf

class Facts : Prop extends Facts₀ where

variable [Facts]
-- ==== Proof.KernelRun.lean ====
/-
  The idealized kernel's run with its result named.  @main is ten stretches of host operations around four
  pipelined regions; the contents of every buffer at each boundary are a fold through @main from the launch
  memory, and the last boundary's contents are what every final state holds.  The frame states that fact for
  the argument arrays only; here the same launch over the same segments is read at the result buffer too, so
  the result array after the run is the fold's value there.
-/
import proofs.«121222_j88149908783507_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v100) = W14 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v100 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.ResultRun

end
-- ==== Proof.Spec.lean ====
/-
  The graph-convolution network both programs compute, as pure functions of arrays.

  A directed edge list `ei` (row 0 the sources, row 1 the targets, E = 1600000 edges over N = 100000 nodes) is
  extended by one self loop per node.  `deg d` counts, for every node, the extended edges that point at it;
  `dinv d` is deg^(-1/2) where the degree is positive and 0 elsewhere; `edgeScale s d` gives every extended
  edge the weight dinv(source) · dinv(target), indices below zero counted from the end (`wrapIdx`).  One
  convolution `conv s d e xw b` gathers the transformed features `xw` at the sources, scales each gathered row
  by its edge's weight, adds the rows up at the targets and adds the bias `b` to every row.  `relu` is the
  maximum with zero, `pool batch h` the mean of the rows of `h` over each of the 256 graphs `batch` assigns
  the nodes to (an empty graph divides by 1), and `weight0/1`, `bias0/1` cut the two hidden layers'
  parameters out of their stacked arrays.  `network` chains three convolutions, each after a matrix product
  with its weights, a relu after each, the pool and the last linear layer; the matrix products are a
  parameter (`mm128`, `mm64`, `mm256`) so that the same chain is stated once for the host's dot_general
  and once for the product computed block by block.
-/
import proofs.«121222_j88149908783507_1_alg».proof.ReferenceIdeal
import Idealize.ShloMosaic.Lib.StableHlo.Run

noncomputable section

namespace Cert.Gcn

open Cert.ReferenceIdeal Cert.ReferenceIdeal.Facts₀ Cert.ReferenceIdeal.Facts
open Idealize.ShloMosaic Idealize.ShloMosaic.TcCoe Idealize.SL.Sem

variable {F : FTy → Type} [FloatOps F] [Cert.ReferenceIdeal.Facts]

/-- The edge list's row followed by the self loops 0, 1, …, N-1. -/
def cat (a : (⟨S1600000, .i32⟩ : BufTy).Contents (Elt F)) (b : (⟨S100000, .i32⟩ : BufTy).Contents (Elt F)) : (⟨S1700000, .i32⟩ : BufTy).Contents (Elt F) :=
  concatenate S1700000 0 [⟨S1600000, a⟩, ⟨S100000, b⟩] concatenates_S1600000_S100000_S1700000_d0

theorem cat_fold (a : (⟨S1600000, .i32⟩ : BufTy).Contents (Elt F)) (b : (⟨S100000, .i32⟩ : BufTy).Contents (Elt F)) :
    concatenate S1700000 0 [⟨S1600000, a⟩, ⟨S100000, b⟩] concatenates_S1600000_S100000_S1700000_d0 = cat (F := F) a b := rfl

/-- Row 0 of the edge list: the sources. -/
def edgeRow0 (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- Row 1 of the edge list: the targets. -/
def edgeRow1 (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- An edge row with the self loops appended. -/
def withLoops (r : (⟨S1600000, .i32⟩ : BufTy).Contents (Elt F)) : (⟨S1700000, .i32⟩ : BufTy).Contents (Elt F) := cat r (iotaInDim S100000 32 0)

/-- How many extended edges point at each node. -/
def deg (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- deg^(-1/2) where the degree is positive, 0 elsewhere. -/
def dinv (d : (⟨S1700000, .i32⟩ : BufTy).Contents (Elt F)) : (⟨S100000, .f32⟩ : BufTy).Contents (Elt F) :=
  select (cmpf .ogt (deg d) (broadcastInDim S100000 ![] bcast_S_S100000 (constant S_ .f32 0x00000000#32))) (Host.rsqrt (deg d)) (broadcastInDim S100000 ![] bcast_S_S100000 (id (constant S_ .f32 0x00000000#32)))

/-- A node index below zero is counted from the end. -/
def wrapIdx (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- Every extended edge's weight dinv(source) · dinv(target), as a column. -/
def edgeScale (s d : (⟨S1700000, .i32⟩ : BufTy).Contents (Elt F)) : (⟨S1700000x1, .f32⟩ : BufTy).Contents (Elt F) :=
  broadcastInDim S1700000x1 ![0] bcast_S1700000_S1700000x1_0 (mulf (Host.gather gather_S100000_S1700000x1_S1700000_n_0_n_n_0_1_1 (dinv d) (broadcastInDim S1700000x1 ![0] bcast_S1700000_S1700000x1_0 (wrapIdx s))) (Host.gather gather_S100000_S1700000x1_S1700000_n_0_n_n_0_1_1 (dinv d) (broadcastInDim S1700000x1 ![0] bcast_S1700000_S1700000x1_0 (wrapIdx d))))

/-- One graph convolution of already transformed features: gather at the sources, scale, add up at the targets, add the bias. -/
def conv (s d : (⟨S1700000, .i32⟩ : BufTy).Contents (Elt F)) (e : (⟨S1700000x1, .f32⟩ : BufTy).Contents (Elt F)) (xw : (⟨S100000x64, .f32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (broadcastInDim S1700000x64 ![0, 1] bcast_S1700000x1_S1700000x64_0_1 e) (Host.gather gather_S100000x64_S1700000x1_S1700000x64_1_0_n_n_0_1_164 xw (broadcastInDim S1700000x1 ![0] bcast_S1700000_S1700000x1_0 (wrapIdx s))))) (broadcastInDim S100000x64 ![0, 1] bcast_S1x64_S100000x64_0_1 (broadcastInDim S1x64 ![1] bcast_S64_S1x64_1 b))

/-- The maximum with zero. -/
def relu (h : (⟨S100000x64, .f32⟩ : BufTy).Contents (Elt F)) : (⟨S100000x64, .f32⟩ : BufTy).Contents (Elt F) :=
  maximumf h (broadcastInDim S100000x64 ![] bcast_S_S100000x64 (constant S_ .f32 0x00000000#32))

/-- The first hidden layer's weights and bias, and the second's. -/
def weight0 (Ws : (⟨S2x64x64, .f32⟩ : BufTy).Contents (Elt F)) : (⟨S64x64, .f32⟩ : BufTy).Contents (Elt F) :=
  shapeCast _ (extractStridedSlice S1x64x64 ![0, 0, 0] Ws slices_S2x64x64_S1x64x64_0_0_0) shapeCasts_S1x64x64_S64x64
def weight1 (Ws : (⟨S2x64x64, .f32⟩ : BufTy).Contents (Elt F)) : (⟨S64x64, .f32⟩ : BufTy).Contents (Elt F) :=
  shapeCast _ (extractStridedSlice S1x64x64 ![1, 0, 0] Ws slices_S2x64x64_S1x64x64_1_0_0) shapeCasts_S1x64x64_S64x64
def bias0 (bs : (⟨S2x64, .f32⟩ : BufTy).Contents (Elt F)) : (⟨S64, .f32⟩ : BufTy).Contents (Elt F) :=
  shapeCast _ (extractStridedSlice S1x64 ![0, 0] bs slices_S2x64_S1x64_0_0) shapeCasts_S1x64_S64
def bias1 (bs : (⟨S2x64, .f32⟩ : BufTy).Contents (Elt F)) : (⟨S64, .f32⟩ : BufTy).Contents (Elt F) :=
  shapeCast _ (extractStridedSlice S1x64 ![1, 0] bs slices_S2x64_S1x64_1_0) shapeCasts_S1x64_S64

/-- The mean of the rows of `h` over each graph; a graph without nodes divides by 1. -/
def pool (batch : (⟨S100000, .i32⟩ : BufTy).Contents (Elt F)) (h : (⟨S100000x64, .f32⟩ : BufTy).Contents (Elt F)) : (⟨S256x64, .f32⟩ : BufTy).Contents (Elt F) :=
  Host.divf (Host.scatterAdd scatter_S256x64_S100000x1_S100000x64_1_0_0_1 (broadcastInDim S256x64 ![] bcast_S_S256x64 (constant S_ .f32 0x00000000#32)) (broadcastInDim S100000x1 ![0] bcast_S100000_S100000x1_0 batch) h) (broadcastInDim S256x64 ![0, 1] bcast_S256x1_S256x64_0_1 (broadcastInDim S256x1 ![0] bcast_S256_S256x1_0 (maximumf (broadcastInDim S256 ![] bcast_S_S256 (id (constant S_ .f32 0x3F800000#32))) (Host.scatterAdd scatter_S256_S100000x1_S100000_n_0_0_1 (broadcastInDim S256 ![] bcast_S_S256 (constant S_ .f32 0x00000000#32)) (broadcastInDim S100000x1 ![0] bcast_S100000_S100000x1_0 batch) (broadcastInDim S100000 ![] bcast_S_S100000 (constant S_ .f32 0x3F800000#32))))))

/-- The hidden state after the three convolutions and their relus, the matrix products a parameter. -/
def hidden (mm128 : (⟨S100000x128, .f32⟩ : BufTy).Contents (Elt F) → (⟨S128x64, .f32⟩ : BufTy).Contents (Elt F) → (⟨S100000x64, .f32⟩ : BufTy).Contents (Elt F))
    (mm64 : (⟨S100000x64, .f32⟩ : BufTy).Contents (Elt F) → (⟨S64x64, .f32⟩ : BufTy).Contents (Elt F) → (⟨S100000x64, .f32⟩ : BufTy).Contents (Elt F))
    (x : (⟨S100000x128, .f32⟩ : BufTy).Contents (Elt F)) (ei : (⟨S2x1600000, .i32⟩ : BufTy).Contents (Elt F)) (W1 : (⟨S128x64, .f32⟩ : BufTy).Contents (Elt F)) (b1 : (⟨S64, .f32⟩ : BufTy).Contents (Elt F))
    (Ws : (⟨S2x64x64, .f32⟩ : BufTy).Contents (Elt F)) (bs : (⟨S2x64, .f32⟩ : BufTy).Contents (Elt F)) : (⟨S100000x64, .f32⟩ : BufTy).Contents (Elt F) :=
  let s := withLoops (edgeRow0 ei)
  let d := withLoops (edgeRow1 ei)
  let e := edgeScale s d
  relu (conv s d e (mm64 (relu (conv s d e (mm64 (relu (conv s d e (mm128 x W1) b1)) (weight0 Ws)) (bias0 bs))) (weight1 Ws)) (bias1 bs))

/-- The host's products. -/
def dot128 (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w
def dot64 (h : (⟨S100000x64, .f32⟩ : BufTy).Contents (Elt F)) (w : (⟨S64x64, .f32⟩ : BufTy).Contents (Elt F)) : (⟨S100000x64, .f32⟩ : BufTy).Contents (Elt F) :=
  Host.dotGeneral dot_S100000x64_S64x64_S100000x64_1_0_0_1_n_n none h w

/-- The last linear layer on the host: the pooled state times the last weights, plus the last bias in every row. -/
def lastLayer (p : (⟨S256x64, .f32⟩ : BufTy).Contents (Elt F)) (linW : (⟨S64x64, .f32⟩ : BufTy).Contents (Elt F)) (linB : (⟨S64, .f32⟩ : BufTy).Contents (Elt F)) : (⟨S256x64, .f32⟩ : BufTy).Contents (Elt F) :=
  addf (Host.dotGeneral dot_S256x64_S64x64_S256x64_1_0_0_1_n_n none p linW)
    (broadcastInDim S256x64 ![0, 1] bcast_S1x64_S256x64_0_1 (broadcastInDim S1x64 ![1] bcast_S64_S1x64_1 linB))

/-- The reference's result: the pooled hidden state through the last linear layer. -/
def refOut (x : (⟨S100000x128, .f32⟩ : BufTy).Contents (Elt F)) (ei : (⟨S2x1600000, .i32⟩ : BufTy).Contents (Elt F)) (batch : (⟨S100000, .i32⟩ : BufTy).Contents (Elt F)) (W1 : (⟨S128x64, .f32⟩ : BufTy).Contents (Elt F)) (b1 : (⟨S64, .f32⟩ : BufTy).Contents (Elt F))
    (Ws : (⟨S2x64x64, .f32⟩ : BufTy).Contents (Elt F)) (bs : (⟨S2x64, .f32⟩ : BufTy).Contents (Elt F)) (linW : (⟨S64x64, .f32⟩ : BufTy).Contents (Elt F)) (linB : (⟨S64, .f32⟩ : BufTy).Contents (Elt F)) : (⟨S256x64, .f32⟩ : BufTy).Contents (Elt F) :=
  lastLayer (pool batch (hidden dot128 dot64 x ei W1 b1 Ws bs)) linW linB

end Cert.Gcn

/-- Reads a buffer out of a fold of host operations over any contents: every operation's result at its own buffer is
    its function of what its operands hold, any other buffer is untouched; a concatenation of an edge row and the
    self loops is folded into `Cert.Gcn.cat` as soon as it appears, so that its two parts are read in turn. -/
macro "read_after" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Cert.Gcn.cat_fold]))

end
-- ==== Proof.KernelHost.lean ====
/-
  The idealized kernel's host operations, read stretch by stretch.  Between its four pipelined regions @main
  runs the same gathers, scalings and scatter-adds as the reference, computing the degrees and the edge
  weights once, before the first region, and reusing them in all three convolutions.  Each stretch is read
  over ANY contents `U` of the buffers it starts from: what it leaves in the buffers the next region or a
  later stretch reads is one of the network's functions of what `U` holds, and every other buffer it needs
  later is untouched.
-/
import proofs.«121222_j88149908783507_1_alg».proof.Proof.Gen.KernelIdeal.Launch
import proofs.«121222_j88149908783507_1_alg».proof.Proof.Gen.ReferenceIdeal
import proofs.«121222_j88149908783507_1_alg».proof.Proof.Spec

set_option maxRecDepth 8192

noncomputable section

namespace Cert.Gcn.KHost

open Cert.KernelIdeal Cert.KernelIdeal.Gen Cert.KernelIdeal.Facts₀ Cert.KernelIdeal.Facts Cert.Gcn
open Idealize.ShloMosaic Idealize.ShloMosaic.TcCoe Idealize.SL.Sem Idealize.ShloMosaic.StableHlo

variable {F : FTy → Type} [FloatOps F]

/-- The kernel's concatenation of an edge row and the self loops is the network's. -/
theorem catK_fold (a : (⟨S1600000, .i32⟩ : BufTy).Contents (Elt F)) (b : (⟨S100000, .i32⟩ : BufTy).Contents (Elt F)) :
    concatenate S1700000 0 [⟨S1600000, a⟩, ⟨S100000, b⟩] Facts₀.concatenates_S1600000_S100000_S1700000_d0 = Cert.Gcn.cat (F := F) a b := rfl

end Cert.Gcn.KHost

/-- `read_after` with the kernel's spelling of the concatenation. -/
macro "read_afterK" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Cert.Gcn.KHost.catK_fold]))

namespace Cert.Gcn.KHost

open Cert.KernelIdeal Cert.KernelIdeal.Gen Cert.KernelIdeal.Facts₀ Cert.KernelIdeal.Facts Cert.Gcn
open Idealize.ShloMosaic Idealize.ShloMosaic.TcCoe Idealize.SL.Sem Idealize.ShloMosaic.StableHlo

variable {F : FTy → Type} [FloatOps F] (U : Valuation τ sig (Elt F))

/-! ## Before the first region: the extended edge lists and the edge weights -/

theorem pre_sources : after hostOps0_2 (after hostOps0_1 (after hostOps0 U)) (Proc.devRef .tc main_v5) = withLoops (edgeRow0 (U (Proc.devRef .tc main_arg1))) := by
  read_afterK
  rfl
theorem pre_targets : after hostOps0_2 (after hostOps0_1 (after hostOps0 U)) (Proc.devRef .tc main_v6) = withLoops (edgeRow1 (U (Proc.devRef .tc main_arg1))) := by
  read_afterK
  rfl
set_option maxHeartbeats 4000000 in
theorem pre_weights : after hostOps0_2 (after hostOps0_1 (after hostOps0 U)) (Proc.devRef .tc main_v30) =
    edgeScale (withLoops (edgeRow0 (U (Proc.devRef .tc main_arg1)))) (withLoops (edgeRow1 (U (Proc.devRef .tc main_arg1)))) := by
  read_afterK
  rfl
theorem pre_arg0 : after hostOps0_2 (after hostOps0_1 (after hostOps0 U)) (Proc.devRef .tc main_arg0) = U (Proc.devRef .tc main_arg0) := by read_afterK <;> rfl
theorem pre_arg2 : after hostOps0_2 (after hostOps0_1 (after hostOps0 U)) (Proc.devRef .tc main_arg2) = U (Proc.devRef .tc main_arg2) := by read_afterK <;> rfl
theorem pre_arg3 : after hostOps0_2 (after hostOps0_1 (after hostOps0 U)) (Proc.devRef .tc main_arg3) = U (Proc.devRef .tc main_arg3) := by read_afterK <;> rfl
theorem pre_arg4 : after hostOps0_2 (after hostOps0_1 (after hostOps0 U)) (Proc.devRef .tc main_arg4) = U (Proc.devRef .tc main_arg4) := by read_afterK <;> rfl
theorem pre_arg5 : after hostOps0_2 (after hostOps0_1 (after hostOps0 U)) (Proc.devRef .tc main_arg5) = U (Proc.devRef .tc main_arg5) := by read_afterK <;> rfl
theorem pre_arg6 : after hostOps0_2 (after hostOps0_1 (after hostOps0 U)) (Proc.devRef .tc main_arg6) = U (Proc.devRef .tc main_arg6) := by read_afterK <;> rfl
theorem pre_arg7 : after hostOps0_2 (after hostOps0_1 (after hostOps0 U)) (Proc.devRef .tc main_arg7) = U (Proc.devRef .tc main_arg7) := by read_afterK <;> rfl
theorem pre_arg8 : after hostOps0_2 (after hostOps0_1 (after hostOps0 U)) (Proc.devRef .tc main_arg8) = U (Proc.devRef .tc main_arg8) := by read_afterK <;> rfl

/-! ## Between the first and the second region: the first convolution -/

set_option maxHeartbeats 4000000 in
theorem conv1 : after hostOps1 U (Proc.devRef .tc main_v46) =
    conv (U (Proc.devRef .tc main_v5)) (U (Proc.devRef .tc main_v6)) (U (Proc.devRef .tc main_v30)) (U (Proc.devRef .tc main_v31)) (U (Proc.devRef .tc main_arg4)) := by
  read_afterK
  rfl
theorem conv1_weight : after hostOps1 U (Proc.devRef .tc main_v48) = weight0 (U (Proc.devRef .tc main_arg5)) := by
  read_afterK
  rfl
theorem conv1_bias : after hostOps1 U (Proc.devRef .tc main_v50) = bias0 (U (Proc.devRef .tc main_arg6)) := by
  read_afterK
  rfl
theorem conv1_v5 : after hostOps1 U (Proc.devRef .tc main_v5) = U (Proc.devRef .tc main_v5) := by read_afterK <;> rfl
theorem conv1_v6 : after hostOps1 U (Proc.devRef .tc main_v6) = U (Proc.devRef .tc main_v6) := by read_afterK <;> rfl
theorem conv1_v30 : after hostOps1 U (Proc.devRef .tc main_v30) = U (Proc.devRef .tc main_v30) := by read_afterK <;> rfl
theorem conv1_arg2 : after hostOps1 U (Proc.devRef .tc main_arg2) = U (Proc.devRef .tc main_arg2) := by read_afterK <;> rfl
theorem conv1_arg5 : after hostOps1 U (Proc.devRef .tc main_arg5) = U (Proc.devRef .tc main_arg5) := by read_afterK <;> rfl
theorem conv1_arg6 : after hostOps1 U (Proc.devRef .tc main_arg6) = U (Proc.devRef .tc main_arg6) := by read_afterK <;> rfl
theorem conv1_arg7 : after hostOps1 U (Proc.devRef .tc main_arg7) = U (Proc.devRef .tc main_arg7) := by read_afterK <;> rfl
theorem conv1_arg8 : after hostOps1 U (Proc.devRef .tc main_arg8) = U (Proc.devRef .tc main_arg8) := by read_afterK <;> rfl

/-! ## Between the second and the third region: the second convolution -/

set_option maxHeartbeats 4000000 in
theorem conv2 : after hostOps2 U (Proc.devRef .tc main_v66) =
    conv (U (Proc.devRef .tc main_v5)) (U (Proc.devRef .tc main_v6)) (U (Proc.devRef .tc main_v30)) (U (Proc.devRef .tc main_v51)) (U (Proc.devRef .tc main_v50)) := by
  read_afterK
  rfl
theorem conv2_weight : after hostOps2 U (Proc.devRef .tc main_v68) = weight1 (U (Proc.devRef .tc main_arg5)) := by
  read_afterK
  rfl
theorem conv2_bias : after hostOps2 U (Proc.devRef .tc main_v70) = bias1 (U (Proc.devRef .tc main_arg6)) := by
  read_afterK
  rfl
theorem conv2_v5 : after hostOps2 U (Proc.devRef .tc main_v5) = U (Proc.devRef .tc main_v5) := by read_afterK <;> rfl
theorem conv2_v6 : after hostOps2 U (Proc.devRef .tc main_v6) = U (Proc.devRef .tc main_v6) := by read_afterK <;> rfl
theorem conv2_v30 : after hostOps2 U (Proc.devRef .tc main_v30) = U (Proc.devRef .tc main_v30) := by read_afterK <;> rfl
theorem conv2_arg2 : after hostOps2 U (Proc.devRef .tc main_arg2) = U (Proc.devRef .tc main_arg2) := by read_afterK <;> rfl
theorem conv2_arg7 : after hostOps2 U (Proc.devRef .tc main_arg7) = U (Proc.devRef .tc main_arg7) := by read_afterK <;> rfl
theorem conv2_arg8 : after hostOps2 U (Proc.devRef .tc main_arg8) = U (Proc.devRef .tc main_arg8) := by read_afterK <;> rfl

/-! ## Between the third and the last region: the third convolution, its relu and the mean pool -/

set_option maxHeartbeats 4000000 in
theorem pooled : after hostOps3_4 (after hostOps3_3 (after hostOps3_2 (after hostOps3_1 (after hostOps3 U)))) (Proc.devRef .tc main_v98) =
    pool (U (Proc.devRef .tc main_arg2)) (relu (conv (U (Proc.devRef .tc main_v5)) (U (Proc.devRef .tc main_v6)) (U (Proc.devRef .tc main_v30)) (U (Proc.devRef .tc main_v71)) (U (Proc.devRef .tc main_v70)))) := by
  read_afterK
  rfl
/-- The last bias as one row. -/
theorem bias_row : after hostOps3_4 (after hostOps3_3 (after hostOps3_2 (after hostOps3_1 (after hostOps3 U)))) (Proc.devRef .tc main_v99) = shapeCast S1x64 (U (Proc.devRef .tc main_arg8)) Facts₀.shapeCasts_S64_S1x64 := by
  read_afterK
  rfl
theorem pooled_arg7 : after hostOps3_4 (after hostOps3_3 (after hostOps3_2 (after hostOps3_1 (after hostOps3 U)))) (Proc.devRef .tc main_arg7) = U (Proc.devRef .tc main_arg7) := by read_afterK <;> rfl

end Cert.Gcn.KHost

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibMatmulBlock.lean ====
/-
  A block of a matrix product is the product of a row block and a column block.  Read the left matrix
  through a map that shifts rows by a row offset and keeps the contracted axis, the right matrix through a
  map that keeps the contracted axis and shifts columns by a column offset: the product of the two blocks
  at (p, q) is the whole product at (row offset + p, column offset + q).  The maps are arbitrary functions
  between index types, constrained only by what they do to each coordinate, so a window's block embedding
  can be passed as it is.
-/
import proofs.«121222_j88149908783507_1_alg».proof.Proof.LibMatmul

noncomputable section

open scoped BigOperators

namespace Cert.LibMatmul

open Idealize.ShloMosaic Idealize.ShloMosaic.ValueIdx

/-- The product of a row block of `X` and a column block of `W`, at an index of the block, is the product of
    `X` and `W` at that index moved by the two offsets. -/
theorem MM_block {A K B a b : Nat} (X : (⟨2, ![A, K]⟩ : Shape).Idx → EReal) (W : (⟨2, ![K, B]⟩ : Shape).Idx → EReal)
    (eX : (⟨2, ![a, K]⟩ : Shape).Idx → (⟨2, ![A, K]⟩ : Shape).Idx)
    (eW : (⟨2, ![K, b]⟩ : Shape).Idx → (⟨2, ![K, B]⟩ : Shape).Idx)
    (eO : (⟨2, ![a, b]⟩ : Shape).Idx → (⟨2, ![A, B]⟩ : Shape).Idx)
    (r0 c0 : Nat)
    (hX0 : ∀ y, (eX y 0).val = r0 + (y 0).val) (hX1 : ∀ y, (eX y 1).val = (y 1).val)
    (hW0 : ∀ y, (eW y 0).val = (y 0).val) (hW1 : ∀ y, (eW y 1).val = c0 + (y 1).val)
    (hO0 : ∀ j, (eO j 0).val = r0 + (j 0).val) (hO1 : ∀ j, (eO j 1).val = c0 + (j 1).val)
    (j : (⟨2, ![a, b]⟩ : Shape).Idx) :
    MM (fun y => X (eX y)) (fun y => W (eW y)) j = MM X W (eO j) := by
  unfold MM
  refine Finset.sum_congr rfl fun k _ => ?_
  have e1 : eX (ix2 (j 0) k) = ix2 (eO j 0) k := by
    funext d; apply Fin.ext
    match d with
    | ⟨0, _⟩ => exact (hX0 _).trans (hO0 j).symm
    | ⟨1, _⟩ => exact hX1 _
  have e2 : eW (ix2 k (j 1)) = ix2 k (eO j 1) := by
    funext d; apply Fin.ext
    match d with
    | ⟨0, _⟩ => exact hW0 _
    | ⟨1, _⟩ => exact (hW1 _).trans (hO1 j).symm
  exact congrArg₂ (· * ·) (congrArg X e1) (congrArg W e2)

end Cert.LibMatmul

end
-- ==== Proof.RegionVal.lean ====
/-
  The four tiled regions' result arrays, as whole-array functions of the arrays each region finds on entry.

  Regions 0, 1 and 2 are matrix products tiled by rows.  The grid has twenty points; point t holds rows
  5000 t … 5000 t + 4999 of the left matrix and of the result, and the whole weight matrix.  A block's coordinate
  in its array is the block index times the block's extent plus the coordinate inside the block, so block t's
  row p is row 5000 t + p and its columns are the array's columns.  The body multiplies the loaded row block by the
  weights (regions 1 and 2 first clamp the row block below at zero, entry by entry, which commutes with taking a row
  block); a row block of a product is the product of the row block with the whole right matrix, so what point t
  writes back is rows block t of the product of the whole matrices.  Row r is written back by point r / 5000, and
  20 · 5000 = 100000, so the blocks fill the result, which therefore ends as the whole product.

  Region 3 has one grid point whose blocks are the whole arrays; its body adds to the product the one row of its third
  operand repeated down the rows, so the result ends as the product plus, at (p, q), the row's entry q.
-/
import proofs.«121222_j88149908783507_1_alg».proof.Proof.Gen.KernelIdeal.Frame
import proofs.«121222_j88149908783507_1_alg».proof.Proof.LibMatmulBlock
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal
open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b)) (c : Dev nD)

/-- The offsets of a piece that starts at the origin. -/
theorem origin_offsets : (![0, 0] : Fin 2 → Nat) = fun _ => 0 := funext fun a => by fin_cases a <;> rfl

/-- The block indices of region 0's three windows at grid point t: rows block t of the left matrix and of the result,
    the whole weight matrix. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body of region 0 on two loaded blocks: their product. -/
theorem body0 (x : Vec Ideal S5000x128 .f32) (w : Vec Ideal S128x64 .f32) :
    k0_pay1 x w = Cert.LibMatmul.MM (x : S5000x128.Idx → EReal) (w : S128x64.Idx → EReal) := by
  unfold k0_pay1
  dsimp only
  exact Cert.LibMatmul.matmul_zero_eq dot_S5000x128_S128x64_S5000x64_1_0_0_1_n_n rfl rfl rfl rfl rfl rfl none _ _

/-- The body on a row block of X (rows r0 … r0 + 4999) and the whole of W, at an index of the block, is the product of
    X and W at that index moved down by r0 rows. -/
theorem body0_rows (X : S100000x128.Idx → EReal) (W : S128x64.Idx → EReal)
    (eX : S5000x128.Idx → S100000x128.Idx) (eW : S128x64.Idx → S128x64.Idx) (eO : S5000x64.Idx → S100000x64.Idx) (r0 : Nat)
    (hX0 : ∀ y, (eX y 0).val = r0 + (y 0).val) (hX1 : ∀ y, (eX y 1).val = (y 1).val)
    (hW0 : ∀ y, (eW y 0).val = (y 0).val) (hW1 : ∀ y, (eW y 1).val = 0 + (y 1).val)
    (hO0 : ∀ j, (eO j 0).val = r0 + (j 0).val) (hO1 : ∀ j, (eO j 1).val = 0 + (j 1).val)
    (j : S5000x64.Idx) :
    k0_pay1 (F := Ideal) (fun y => X (eX y)) (fun y => W (eW y)) j = Cert.LibMatmul.MM X W (eO j) := by
  rw [body0]
  exact Cert.LibMatmul.MM_block X W eX eW eO r0 0 hX0 hX1 hW0 hW1 hO0 hO1 j

/-- What grid point t of region 0 writes back is rows block t of the product of the left matrix and the weights. -/
theorem flushed0 (t : Fin cfg0.N) :
    (dat0 (F := Ideal) V c).flushed 2 t = ((cfg0.win 2).blk t).view.read (Elt Ideal)
      (Cert.LibMatmul.MM (V c main_arg0 : S100000x128.Idx → EReal) (V c main_arg3 : S128x64.Idx → EReal)) := by
  show (cfg0.win 2).cut (grid0.coords t) ((dat0 V c).after 2 t) = _
  rw [after0_2]
  unfold out0_2
  rw [View.canon_unit_zero origin_offsets]
  simp only [View.ld_unit_zero (S := S5000x128) origin_offsets, View.ld_unit_zero (S := S128x64) origin_offsets]
  obtain ⟨e0, e1, e2, e3, e4, e5⟩ := block_index0 t
  funext j
  refine body0_rows (V c main_arg0) (V c main_arg3) ((cfg0.win 0).blk t).view.emb ((cfg0.win 1).blk t).view.emb ((cfg0.win 2).blk t).view.emb (5000 * t.val) ?_ ?_ ?_ ?_ ?_ ?_ j
  · intro y; show win0_0.index t (0 : Fin 2) * 5000 + 1 * (y 0).val = _; omega
  · intro y; show win0_0.index t (1 : Fin 2) * 128 + 1 * (y 1).val = _; omega
  · intro y; show win0_1.index t (0 : Fin 2) * 128 + 1 * (y 0).val = _; omega
  · intro y; show win0_1.index t (1 : Fin 2) * 64 + 1 * (y 1).val = _; omega
  · intro y; show win0_2.index t (0 : Fin 2) * 5000 + 1 * (y 0).val = _; omega
  · intro y; show win0_2.index t (1 : Fin 2) * 64 + 1 * (y 1).val = _; omega

/-- An index of the result is in grid point t's block iff each coordinate is in the block's range on its axis. -/
theorem mem_rows0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- Row r of the result is written back by grid point r / 5000: the twenty blocks of 5000 rows fill the 100000 rows. -/
theorem rows_covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e4, e5⟩ := block_index0 t
  refine ⟨t, flush0_2 t, ?_⟩
  rw [mem_rows0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- Region 0's result array after the region: the product of the left matrix and the weights. -/
theorem region0_array : ((dat0 (F := Ideal) V c).arrAt 2 cfg0.N : (⟨2, ![100000, 64]⟩ : Shape).Idx → EReal)
    = Cert.LibMatmul.MM (V c main_arg0 : S100000x128.Idx → EReal) (V c main_arg3 : S128x64.Idx → EReal) :=
  (dat0 V c).arrAt_eq_of_cover 2 _ (fun t _ => flushed0 V c t) rows_covered0

/-- The block indices of region 1's three windows at grid point t: rows block t of the left matrix and of the result,
    the whole weight matrix. -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body of region 1 on two loaded blocks: the product of the block clamped below at zero and the weights. -/
theorem body1 (x : Vec Ideal S5000x64 .f32) (w : Vec Ideal S64x64 .f32) :
    k1_pay1 x w = Cert.LibMatmul.MM (maximumf (F := Ideal) x (broadcast S5000x64 (Scalar.ofBits .f32 0x00000000#32)) : S5000x64.Idx → EReal) (w : S64x64.Idx → EReal) := by
  unfold k1_pay1
  dsimp only
  rw [shapeCast_self, shapeCast_self]
  exact Cert.LibMatmul.matmul_zero_eq dot_S5000x64_S64x64_S5000x64_1_0_0_1_n_n rfl rfl rfl rfl rfl rfl none _ _

/-- The body on a row block of X (rows r0 … r0 + 4999) and the whole of W, at an index of the block, is the product of
    the clamped X and W at that index moved down by r0 rows. -/
theorem body1_rows (X : S100000x64.Idx → EReal) (W : S64x64.Idx → EReal)
    (eX : S5000x64.Idx → S100000x64.Idx) (eW : S64x64.Idx → S64x64.Idx) (eO : S5000x64.Idx → S100000x64.Idx) (r0 : Nat)
    (hX0 : ∀ y, (eX y 0).val = r0 + (y 0).val) (hX1 : ∀ y, (eX y 1).val = (y 1).val)
    (hW0 : ∀ y, (eW y 0).val = (y 0).val) (hW1 : ∀ y, (eW y 1).val = 0 + (y 1).val)
    (hO0 : ∀ j, (eO j 0).val = r0 + (j 0).val) (hO1 : ∀ j, (eO j 1).val = 0 + (j 1).val)
    (j : S5000x64.Idx) :
    k1_pay1 (F := Ideal) (fun y => X (eX y)) (fun y => W (eW y)) j
      = Cert.LibMatmul.MM (maximumf (F := Ideal) X (broadcastInDim S100000x64 ![] bcast_S_S100000x64 (constant S_ .f32 0x00000000#32)) : S100000x64.Idx → EReal) W (eO j) := by
  rw [body1]
  exact Cert.LibMatmul.MM_block (maximumf (F := Ideal) X (broadcastInDim S100000x64 ![] bcast_S_S100000x64 (constant S_ .f32 0x00000000#32)) : S100000x64.Idx → EReal) W eX eW eO r0 0 hX0 hX1 hW0 hW1 hO0 hO1 j

/-- What grid point t of region 1 writes back is rows block t of the product of the clamped left matrix and the weights. -/
theorem flushed1 (t : Fin cfg1.N) :
    (dat1 (F := Ideal) V c).flushed 2 t = ((cfg1.win 2).blk t).view.read (Elt Ideal)
      (Cert.LibMatmul.MM (maximumf (F := Ideal) (V c main_v46) (broadcastInDim S100000x64 ![] bcast_S_S100000x64 (constant S_ .f32 0x00000000#32)) : S100000x64.Idx → EReal) (V c main_v48 : S64x64.Idx → EReal)) := by
  show (cfg1.win 2).cut (grid1.coords t) ((dat1 V c).after 2 t) = _
  rw [after1_2]
  unfold out1_2
  rw [View.canon_unit_zero origin_offsets]
  simp only [View.ld_unit_zero (S := S5000x64) origin_offsets, View.ld_unit_zero (S := S64x64) origin_offsets]
  obtain ⟨e0, e1, e2, e3, e4, e5⟩ := block_index1 t
  funext j
  refine body1_rows (V c main_v46) (V c main_v48) ((cfg1.win 0).blk t).view.emb ((cfg1.win 1).blk t).view.emb ((cfg1.win 2).blk t).view.emb (5000 * t.val) ?_ ?_ ?_ ?_ ?_ ?_ j
  · intro y; show win1_0.index t (0 : Fin 2) * 5000 + 1 * (y 0).val = _; omega
  · intro y; show win1_0.index t (1 : Fin 2) * 64 + 1 * (y 1).val = _; omega
  · intro y; show win1_1.index t (0 : Fin 2) * 64 + 1 * (y 0).val = _; omega
  · intro y; show win1_1.index t (1 : Fin 2) * 64 + 1 * (y 1).val = _; omega
  · intro y; show win1_2.index t (0 : Fin 2) * 5000 + 1 * (y 0).val = _; omega
  · intro y; show win1_2.index t (1 : Fin 2) * 64 + 1 * (y 1).val = _; omega

/-- An index of the result is in grid point t's block iff each coordinate is in the block's range on its axis. -/
theorem mem_rows1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v51).slice (win1_2.rect t)).set ↔ _
  rw [View.set_slice_whole, Rect.mem_set_unit]
  exact Iff.rfl

/-- Row r of the result is written back by grid point r / 5000: the twenty blocks of 5000 rows fill the 100000 rows. -/
theorem rows_covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, e4, e5⟩ := block_index1 t
  refine ⟨t, flush1_2 t, ?_⟩
  rw [mem_rows1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- Region 1's result array after the region: the product of the left matrix clamped below at zero and the weights. -/
theorem region1_array : ((dat1 (F := Ideal) V c).arrAt 2 cfg1.N : (⟨2, ![100000, 64]⟩ : Shape).Idx → EReal)
    = Cert.LibMatmul.MM (maximumf (F := Ideal) (V c main_v46) (broadcastInDim S100000x64 ![] bcast_S_S100000x64 (constant S_ .f32 0x00000000#32)) : S100000x64.Idx → EReal) (V c main_v48 : S64x64.Idx → EReal) :=
  (dat1 V c).arrAt_eq_of_cover 2 _ (fun t _ => flushed1 V c t) rows_covered1

/-- The block indices of region 2's three windows at grid point t: rows block t of the left matrix and of the result,
    the whole weight matrix. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body of region 2 on two loaded blocks: the product of the block clamped below at zero and the weights. -/
theorem body2 (x : Vec Ideal S5000x64 .f32) (w : Vec Ideal S64x64 .f32) :
    k2_pay1 x w = Cert.LibMatmul.MM (maximumf (F := Ideal) x (broadcast S5000x64 (Scalar.ofBits .f32 0x00000000#32)) : S5000x64.Idx → EReal) (w : S64x64.Idx → EReal) := by
  unfold k2_pay1
  dsimp only
  rw [shapeCast_self, shapeCast_self]
  exact Cert.LibMatmul.matmul_zero_eq dot_S5000x64_S64x64_S5000x64_1_0_0_1_n_n rfl rfl rfl rfl rfl rfl none _ _

/-- The body on a row block of X (rows r0 … r0 + 4999) and the whole of W, at an index of the block, is the product of
    the clamped X and W at that index moved down by r0 rows. -/
theorem body2_rows (X : S100000x64.Idx → EReal) (W : S64x64.Idx → EReal)
    (eX : S5000x64.Idx → S100000x64.Idx) (eW : S64x64.Idx → S64x64.Idx) (eO : S5000x64.Idx → S100000x64.Idx) (r0 : Nat)
    (hX0 : ∀ y, (eX y 0).val = r0 + (y 0).val) (hX1 : ∀ y, (eX y 1).val = (y 1).val)
    (hW0 : ∀ y, (eW y 0).val = (y 0).val) (hW1 : ∀ y, (eW y 1).val = 0 + (y 1).val)
    (hO0 : ∀ j, (eO j 0).val = r0 + (j 0).val) (hO1 : ∀ j, (eO j 1).val = 0 + (j 1).val)
    (j : S5000x64.Idx) :
    k2_pay1 (F := Ideal) (fun y => X (eX y)) (fun y => W (eW y)) j
      = Cert.LibMatmul.MM (maximumf (F := Ideal) X (broadcastInDim S100000x64 ![] bcast_S_S100000x64 (constant S_ .f32 0x00000000#32)) : S100000x64.Idx → EReal) W (eO j) := by
  rw [body2]
  exact Cert.LibMatmul.MM_block (maximumf (F := Ideal) X (broadcastInDim S100000x64 ![] bcast_S_S100000x64 (constant S_ .f32 0x00000000#32)) : S100000x64.Idx → EReal) W eX eW eO r0 0 hX0 hX1 hW0 hW1 hO0 hO1 j

/-- What grid point t of region 2 writes back is rows block t of the product of the clamped left matrix and the weights. -/
theorem flushed2 (t : Fin cfg2.N) :
    (dat2 (F := Ideal) V c).flushed 2 t = ((cfg2.win 2).blk t).view.read (Elt Ideal)
      (Cert.LibMatmul.MM (maximumf (F := Ideal) (V c main_v66) (broadcastInDim S100000x64 ![] bcast_S_S100000x64 (constant S_ .f32 0x00000000#32)) : S100000x64.Idx → EReal) (V c main_v68 : S64x64.Idx → EReal)) := by
  show (cfg2.win 2).cut (grid2.coords t) ((dat2 V c).after 2 t) = _
  rw [after2_2]
  unfold out2_2
  rw [View.canon_unit_zero origin_offsets]
  simp only [View.ld_unit_zero (S := S5000x64) origin_offsets, View.ld_unit_zero (S := S64x64) origin_offsets]
  obtain ⟨e0, e1, e2, e3, e4, e5⟩ := block_index2 t
  funext j
  refine body2_rows (V c main_v66) (V c main_v68) ((cfg2.win 0).blk t).view.emb ((cfg2.win 1).blk t).view.emb ((cfg2.win 2).blk t).view.emb (5000 * t.val) ?_ ?_ ?_ ?_ ?_ ?_ j
  · intro y; show win2_0.index t (0 : Fin 2) * 5000 + 1 * (y 0).val = _; omega
  · intro y; show win2_0.index t (1 : Fin 2) * 64 + 1 * (y 1).val = _; omega
  · intro y; show win2_1.index t (0 : Fin 2) * 64 + 1 * (y 0).val = _; omega
  · intro y; show win2_1.index t (1 : Fin 2) * 64 + 1 * (y 1).val = _; omega
  · intro y; show win2_2.index t (0 : Fin 2) * 5000 + 1 * (y 0).val = _; omega
  · intro y; show win2_2.index t (1 : Fin 2) * 64 + 1 * (y 1).val = _; omega

/-- An index of the result is in grid point t's block iff each coordinate is in the block's range on its axis. -/
theorem mem_rows2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v71).slice (win2_2.rect t)).set ↔ _
  rw [View.set_slice_whole, Rect.mem_set_unit]
  exact Iff.rfl

/-- Row r of the result is written back by grid point r / 5000: the twenty blocks of 5000 rows fill the 100000 rows. -/
theorem rows_covered2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e4, e5⟩ := block_index2 t
  refine ⟨t, flush2_2 t, ?_⟩
  rw [mem_rows2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- Region 2's result array after the region: the product of the left matrix clamped below at zero and the weights. -/
theorem region2_array : ((dat2 (F := Ideal) V c).arrAt 2 cfg2.N : (⟨2, ![100000, 64]⟩ : Shape).Idx → EReal)
    = Cert.LibMatmul.MM (maximumf (F := Ideal) (V c main_v66) (broadcastInDim S100000x64 ![] bcast_S_S100000x64 (constant S_ .f32 0x00000000#32)) : S100000x64.Idx → EReal) (V c main_v68 : S64x64.Idx → EReal) :=
  (dat2 V c).arrAt_eq_of_cover 2 _ (fun t _ => flushed2 V c t) rows_covered2

/-- The block indices of region 3's four windows at its one grid point: every window is its whole array. -/
theorem block_index3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The body of region 3 on three loaded blocks: the product of the first two plus the third repeated down the rows. -/
theorem body3_sum (x : Vec Ideal S256x64 .f32) (w : Vec Ideal S64x64 .f32) (b : Vec Ideal S1x64 .f32) :
    k3_pay1 x w b = addf (F := Ideal) (Cert.LibMatmul.MM (x : S256x64.Idx → EReal) (w : S64x64.Idx → EReal) : FVec Ideal S256x64 .f32)
      (broadcastTo S256x64 b broadcasts_S1x64_S256x64) := by
  unfold k3_pay1
  dsimp only
  rw [shapeCast_self, shapeCast_self]
  exact congrArg (fun p : FVec Ideal S256x64 .f32 => addf (F := Ideal) p (broadcastTo S256x64 b broadcasts_S1x64_S256x64))
    (Cert.LibMatmul.matmul_zero_eq dot_S256x64_S64x64_S256x64_1_0_0_1_n_n rfl rfl rfl rfl rfl rfl none _ _)

/-- The body of region 3 on three loaded blocks, at an index: the product of the first two plus the one row of the
    third, repeated down the rows. -/
theorem body3 (x : Vec Ideal S256x64 .f32) (w : Vec Ideal S64x64 .f32) (b : Vec Ideal S1x64 .f32) (j : S256x64.Idx) :
    k3_pay1 x w b j = Cert.LibMatmul.MM (x : S256x64.Idx → EReal) (w : S64x64.Idx → EReal) j + (b : S1x64.Idx → EReal) (ix2 0 (j 1)) := by
  refine (congrFun (body3_sum x w b) j).trans ?_
  show Cert.LibMatmul.MM (x : S256x64.Idx → EReal) (w : S64x64.Idx → EReal) j + broadcastTo S256x64 b broadcasts_S1x64_S256x64 j = _
  refine congrArg (Cert.LibMatmul.MM (x : S256x64.Idx → EReal) (w : S64x64.Idx → EReal) j + ·) ?_
  exact broadcastTo_apply _ broadcasts_S1x64_S256x64 j (ix2 0 (j 1)) (fun a => by
    match a with
    | ⟨0, _⟩ => rfl
    | ⟨1, _⟩ => rfl)

/-- The body on the three arrays read through maps that keep every coordinate, at an index, is the product of X and W
    at the index plus the row B at the index's column. -/
theorem body3_whole (X : S256x64.Idx → EReal) (W : S64x64.Idx → EReal) (B : S1x64.Idx → EReal)
    (eX : S256x64.Idx → S256x64.Idx) (eW : S64x64.Idx → S64x64.Idx) (eB : S1x64.Idx → S1x64.Idx) (eO : S256x64.Idx → S256x64.Idx)
    (hX0 : ∀ y, (eX y 0).val = 0 + (y 0).val) (hX1 : ∀ y, (eX y 1).val = (y 1).val)
    (hW0 : ∀ y, (eW y 0).val = (y 0).val) (hW1 : ∀ y, (eW y 1).val = 0 + (y 1).val)
    (hB0 : ∀ y, (eB y 0).val = (y 0).val) (hB1 : ∀ y, (eB y 1).val = (y 1).val)
    (hO0 : ∀ j, (eO j 0).val = 0 + (j 0).val) (hO1 : ∀ j, (eO j 1).val = 0 + (j 1).val)
    (j : S256x64.Idx) :
    k3_pay1 (F := Ideal) (fun y => X (eX y)) (fun y => W (eW y)) (fun y => B (eB y)) j
      = Cert.LibMatmul.MM X W (eO j) + B (ix2 0 (eO j 1)) := by
  rw [body3]
  refine congrArg₂ (· + ·) (Cert.LibMatmul.MM_block X W eX eW eO 0 0 hX0 hX1 hW0 hW1 hO0 hO1 j) (congrArg B ?_)
  funext a; apply Fin.ext
  match a with
  | ⟨0, _⟩ => exact hB0 _
  | ⟨1, _⟩ => exact (hB1 _).trans ((Nat.zero_add _).symm.trans (hO1 j).symm)

/-- What region 3's one grid point writes back is the whole of the product plus the repeated row. -/
theorem flushed3 (t : Fin cfg3.N) :
    (dat3 (F := Ideal) V c).flushed 3 t = ((cfg3.win 3).blk t).view.read (Elt Ideal)
      (fun i => Cert.LibMatmul.MM (V c main_v98 : S256x64.Idx → EReal) (V c main_arg7 : S64x64.Idx → EReal) i
        + (V c main_v99 : S1x64.Idx → EReal) (ix2 0 (i 1))) := by
  show (cfg3.win 3).cut (grid3.coords t) ((dat3 V c).after 3 t) = _
  rw [after3_3]
  unfold out3_3
  rw [View.canon_unit_zero origin_offsets]
  simp only [View.ld_unit_zero (S := S256x64) origin_offsets, View.ld_unit_zero (S := S64x64) origin_offsets, View.ld_unit_zero (S := S1x64) origin_offsets]
  obtain ⟨e0, e1, e2, e3, e4, e5, e6, e7⟩ := block_index3 t
  funext j
  refine body3_whole (V c main_v98) (V c main_arg7) (V c main_v99) ((cfg3.win 0).blk t).view.emb ((cfg3.win 1).blk t).view.emb ((cfg3.win 2).blk t).view.emb ((cfg3.win 3).blk t).view.emb ?_ ?_ ?_ ?_ ?_ ?_ ?_ ?_ j
  · intro y; show win3_0.index t (0 : Fin 2) * 256 + 1 * (y 0).val = _; omega
  · intro y; show win3_0.index t (1 : Fin 2) * 64 + 1 * (y 1).val = _; omega
  · intro y; show win3_1.index t (0 : Fin 2) * 64 + 1 * (y 0).val = _; omega
  · intro y; show win3_1.index t (1 : Fin 2) * 64 + 1 * (y 1).val = _; omega
  · intro y; show win3_2.index t (0 : Fin 2) * 1 + 1 * (y 0).val = _; omega
  · intro y; show win3_2.index t (1 : Fin 2) * 64 + 1 * (y 1).val = _; omega
  · intro y; show win3_3.index t (0 : Fin 2) * 256 + 1 * (y 0).val = _; omega
  · intro y; show win3_3.index t (1 : Fin 2) * 64 + 1 * (y 1).val = _; omega

/-- An index of the result is in the grid point's block iff each coordinate is in the block's range on its axis. -/
theorem mem_whole3 (t : Fin cfg3.N) (i : S256x64.Idx) :
    i ∈ ((cfg3.win 3).blk t).view.set ↔ ∀ a : Fin 2, win3_3.index t a * S256x64.size a ≤ (i a).val ∧ (i a).val < win3_3.index t a * S256x64.size a + S256x64.size a := by
  show i ∈ ((View.whole main_v100).slice (win3_3.rect t)).set ↔ _
  rw [View.set_slice_whole, Rect.mem_set_unit]
  exact Iff.rfl

/-- Every index of the result is written back by the one grid point, whose block is the whole array. -/
theorem whole_covered3 (i : S256x64.Idx) :
    ∃ t : Fin cfg3.N, (cfg3.win 3).flush t = true ∧ i ∈ ((cfg3.win 3).blk t).view.set := by
  have hi0 : (i 0).val < 256 := (i 0).isLt
  have hi1 : (i 1).val < 64 := (i 1).isLt
  obtain ⟨-, -, -, -, -, -, e6, e7⟩ := block_index3 t3_0
  refine ⟨t3_0, flush3_3 t3_0, ?_⟩
  rw [mem_whole3]
  intro a
  match a with
  | ⟨0, _⟩ => show win3_3.index t3_0 (0 : Fin 2) * 256 ≤ (i 0).val ∧ (i 0).val < win3_3.index t3_0 (0 : Fin 2) * 256 + 256; omega
  | ⟨1, _⟩ => show win3_3.index t3_0 (1 : Fin 2) * 64 ≤ (i 1).val ∧ (i 1).val < win3_3.index t3_0 (1 : Fin 2) * 64 + 64; omega

/-- Region 3's result array after the region: the product of its first two operands plus its third operand's one row
    at every row. -/
theorem region3_array : ((dat3 (F := Ideal) V c).arrAt 3 cfg3.N : (⟨2, ![256, 64]⟩ : Shape).Idx → EReal)
    = fun i => Cert.LibMatmul.MM (V c main_v98 : S256x64.Idx → EReal) (V c main_arg7 : S64x64.Idx → EReal) i
        + (V c main_v99 : S1x64.Idx → EReal) (ix2 0 (i 1)) :=
  (dat3 V c).arrAt_eq_of_cover 3 _ (fun t _ => flushed3 V c t) whole_covered3

end Cert.KernelIdeal.RegionVal

end
-- ==== Proof.KernelVal.lean ====
/-
  The idealized kernel's result as the network of the argument arrays.  The contents of the buffers at each
  boundary of @main are followed forward from the launch: a stretch of host operations leaves one of the
  network's functions of what the previous boundary held; a region leaves in its output array the matrix
  product of its input arrays (of their relu, in the second and third region), computed 5000 rows at a
  time, and touches no other buffer.  At the end the result array holds the pooled third hidden state times
  the last weights plus the last bias read as one row.
-/
import proofs.«121222_j88149908783507_1_alg».proof.Proof.Gen.KernelIdeal.Frame
import proofs.«121222_j88149908783507_1_alg».proof.Proof.KernelHost
import proofs.«121222_j88149908783507_1_alg».proof.Proof.RegionVal

set_option maxRecDepth 16384

noncomputable section

namespace Cert.Gcn.KVal

open Cert.KernelIdeal Cert.KernelIdeal.Gen Cert.KernelIdeal.Facts₀ Cert.KernelIdeal.Facts Cert.Gcn Cert.Gcn.KHost Cert.KernelIdeal.RegionVal
open Idealize.ShloMosaic Idealize.ShloMosaic.TcCoe Idealize.SL.Sem Idealize.ShloMosaic.ValueIdx

/-- The matrix products the regions compute, on arrays of the kernel's shapes. -/
def mm128 (x : S100000x128.Idx → EReal) (w : S128x64.Idx → EReal) : S100000x64.Idx → EReal := Cert.LibMatmul.MM x w
def mm64 (h : S100000x64.Idx → EReal) (w : S64x64.Idx → EReal) : S100000x64.Idx → EReal := Cert.LibMatmul.MM h w

variable (m : (ℓ : Loc nD τ sig) → Buf (Elt Ideal) ℓ) (ρ : Dev nD → PrngReg) (c : Dev nD)

theorem at3_v5 : W3 m ρ c (Proc.devRef .tc main_v5) = (withLoops (F := Ideal) (edgeRow0 (F := Ideal) (m ((c.tc : Thread nD τ).loc main_arg1)))) := pre_sources (F := Ideal) (W0 m ρ c)
theorem at3_v6 : W3 m ρ c (Proc.devRef .tc main_v6) = (withLoops (F := Ideal) (edgeRow1 (F := Ideal) (m ((c.tc : Thread nD τ).loc main_arg1)))) := pre_targets (F := Ideal) (W0 m ρ c)
theorem at3_v30 : W3 m ρ c (Proc.devRef .tc main_v30) = (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) := pre_weights (F := Ideal) (W0 m ρ c)
theorem at3_arg0 : W3 m ρ c (Proc.devRef .tc main_arg0) = (m ((c.tc : Thread nD τ).loc main_arg0)) := pre_arg0 (F := Ideal) (W0 m ρ c)
theorem at3_arg2 : W3 m ρ c (Proc.devRef .tc main_arg2) = (m ((c.tc : Thread nD τ).loc main_arg2)) := pre_arg2 (F := Ideal) (W0 m ρ c)
theorem at3_arg3 : W3 m ρ c (Proc.devRef .tc main_arg3) = (m ((c.tc : Thread nD τ).loc main_arg3)) := pre_arg3 (F := Ideal) (W0 m ρ c)
theorem at3_arg4 : W3 m ρ c (Proc.devRef .tc main_arg4) = (m ((c.tc : Thread nD τ).loc main_arg4)) := pre_arg4 (F := Ideal) (W0 m ρ c)
theorem at3_arg5 : W3 m ρ c (Proc.devRef .tc main_arg5) = (m ((c.tc : Thread nD τ).loc main_arg5)) := pre_arg5 (F := Ideal) (W0 m ρ c)
theorem at3_arg6 : W3 m ρ c (Proc.devRef .tc main_arg6) = (m ((c.tc : Thread nD τ).loc main_arg6)) := pre_arg6 (F := Ideal) (W0 m ρ c)
theorem at3_arg7 : W3 m ρ c (Proc.devRef .tc main_arg7) = (m ((c.tc : Thread nD τ).loc main_arg7)) := pre_arg7 (F := Ideal) (W0 m ρ c)
theorem at3_arg8 : W3 m ρ c (Proc.devRef .tc main_arg8) = (m ((c.tc : Thread nD τ).loc main_arg8)) := pre_arg8 (F := Ideal) (W0 m ρ c)
theorem at4_v31 : W4 m ρ c (Proc.devRef .tc main_v31) = (mm128 (m ((c.tc : Thread nD τ).loc main_arg0)) (m ((c.tc : Thread nD τ).loc main_arg3))) :=
  (W4_arr m ρ c 2).trans ((region0_array (V3 m ρ) c).trans (by
    rw [show V3 m ρ c main_arg0 = W3 m ρ c (Proc.devRef .tc main_arg0) from rfl, show V3 m ρ c main_arg3 = W3 m ρ c (Proc.devRef .tc main_arg3) from rfl, at3_arg0, at3_arg3]; rfl))
theorem at4_v5 : W4 m ρ c (Proc.devRef .tc main_v5) = (withLoops (F := Ideal) (edgeRow0 (F := Ideal) (m ((c.tc : Thread nD τ).loc main_arg1)))) := (W4_of_ne m ρ c main_v5 (by decide)).trans (at3_v5 m ρ c)
theorem at4_v6 : W4 m ρ c (Proc.devRef .tc main_v6) = (withLoops (F := Ideal) (edgeRow1 (F := Ideal) (m ((c.tc : Thread nD τ).loc main_arg1)))) := (W4_of_ne m ρ c main_v6 (by decide)).trans (at3_v6 m ρ c)
theorem at4_v30 : W4 m ρ c (Proc.devRef .tc main_v30) = (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) := (W4_of_ne m ρ c main_v30 (by decide)).trans (at3_v30 m ρ c)
theorem at4_arg2 : W4 m ρ c (Proc.devRef .tc main_arg2) = (m ((c.tc : Thread nD τ).loc main_arg2)) := (W4_of_ne m ρ c main_arg2 (by decide)).trans (at3_arg2 m ρ c)
theorem at4_arg4 : W4 m ρ c (Proc.devRef .tc main_arg4) = (m ((c.tc : Thread nD τ).loc main_arg4)) := (W4_of_ne m ρ c main_arg4 (by decide)).trans (at3_arg4 m ρ c)
theorem at4_arg5 : W4 m ρ c (Proc.devRef .tc main_arg5) = (m ((c.tc : Thread nD τ).loc main_arg5)) := (W4_of_ne m ρ c main_arg5 (by decide)).trans (at3_arg5 m ρ c)
theorem at4_arg6 : W4 m ρ c (Proc.devRef .tc main_arg6) = (m ((c.tc : Thread nD τ).loc main_arg6)) := (W4_of_ne m ρ c main_arg6 (by decide)).trans (at3_arg6 m ρ c)
theorem at4_arg7 : W4 m ρ c (Proc.devRef .tc main_arg7) = (m ((c.tc : Thread nD τ).loc main_arg7)) := (W4_of_ne m ρ c main_arg7 (by decide)).trans (at3_arg7 m ρ c)
theorem at4_arg8 : W4 m ρ c (Proc.devRef .tc main_arg8) = (m ((c.tc : Thread nD τ).loc main_arg8)) := (W4_of_ne m ρ c main_arg8 (by decide)).trans (at3_arg8 m ρ c)
theorem at5_v46 : W5 m ρ c (Proc.devRef .tc main_v46) = (conv (F := Ideal) (withLoops (F := Ideal) (edgeRow0 (F := Ideal) (m ((c.tc : Thread nD τ).loc main_arg1)))) (withLoops (F := Ideal) (edgeRow1 (F := Ideal) (m ((c.tc : Thread nD τ).loc main_arg1)))) (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) (mm128 (m ((c.tc : Thread nD τ).loc main_arg0)) (m ((c.tc : Thread nD τ).loc main_arg3))) (m ((c.tc : Thread nD τ).loc main_arg4))) := by
  rw [show W5 m ρ c = StableHlo.after hostOps1 (W4 m ρ c) from rfl, conv1, at4_v5, at4_v6, at4_v30, at4_v31, at4_arg4]
theorem at5_v48 : W5 m ρ c (Proc.devRef .tc main_v48) = (weight0 (F := Ideal) (m ((c.tc : Thread nD τ).loc main_arg5))) := by
  rw [show W5 m ρ c = StableHlo.after hostOps1 (W4 m ρ c) from rfl, conv1_weight, at4_arg5]
theorem at5_v50 : W5 m ρ c (Proc.devRef .tc main_v50) = (bias0 (F := Ideal) (m ((c.tc : Thread nD τ).loc main_arg6))) := by
  rw [show W5 m ρ c = StableHlo.after hostOps1 (W4 m ρ c) from rfl, conv1_bias, at4_arg6]
theorem at5_v5 : W5 m ρ c (Proc.devRef .tc main_v5) = (withLoops (F := Ideal) (edgeRow0 (F := Ideal) (m ((c.tc : Thread nD τ).loc main_arg1)))) := by
  rw [show W5 m ρ c = StableHlo.after hostOps1 (W4 m ρ c) from rfl, conv1_v5, at4_v5]
theorem at5_v6 : W5 m ρ c (Proc.devRef .tc main_v6) = (withLoops (F := Ideal) (edgeRow1 (F := Ideal) (m ((c.tc : Thread nD τ).loc main_arg1)))) := by
  rw [show W5 m ρ c = StableHlo.after hostOps1 (W4 m ρ c) from rfl, conv1_v6, at4_v6]
theorem at5_v30 : W5 m ρ c (Proc.devRef .tc main_v30) = (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) := by
  rw [show W5 m ρ c = StableHlo.after hostOps1 (W4 m ρ c) from rfl, conv1_v30, at4_v30]
theorem at5_arg2 : W5 m ρ c (Proc.devRef .tc main_arg2) = (m ((c.tc : Thread nD τ).loc main_arg2)) := by
  rw [show W5 m ρ c = StableHlo.after hostOps1 (W4 m ρ c) from rfl, conv1_arg2, at4_arg2]
theorem at5_arg5 : W5 m ρ c (Proc.devRef .tc main_arg5) = (m ((c.tc : Thread nD τ).loc main_arg5)) := by
  rw [show W5 m ρ c = StableHlo.after hostOps1 (W4 m ρ c) from rfl, conv1_arg5, at4_arg5]
theorem at5_arg6 : W5 m ρ c (Proc.devRef .tc main_arg6) = (m ((c.tc : Thread nD τ).loc main_arg6)) := by
  rw [show W5 m ρ c = StableHlo.after hostOps1 (W4 m ρ c) from rfl, conv1_arg6, at4_arg6]
theorem at5_arg7 : W5 m ρ c (Proc.devRef .tc main_arg7) = (m ((c.tc : Thread nD τ).loc main_arg7)) := by
  rw [show W5 m ρ c = StableHlo.after hostOps1 (W4 m ρ c) from rfl, conv1_arg7, at4_arg7]
theorem at5_arg8 : W5 m ρ c (Proc.devRef .tc main_arg8) = (m ((c.tc : Thread nD τ).loc main_arg8)) := by
  rw [show W5 m ρ c = StableHlo.after hostOps1 (W4 m ρ c) from rfl, conv1_arg8, at4_arg8]
theorem at6_v51 : W6 m ρ c (Proc.devRef .tc main_v51) = (mm64 (relu (F := Ideal) (conv (F := Ideal) (withLoops (F := Ideal) (edgeRow0 (F := Ideal) (m ((c.tc : Thread nD τ).loc main_arg1)))) (withLoops (F := Ideal) (edgeRow1 (F := Ideal) (m ((c.tc : Thread nD τ).loc main_arg1)))) (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) (mm128 (m ((c.tc : Thread nD τ).loc main_arg0)) (m ((c.tc : Thread nD τ).loc main_arg3))) (m ((c.tc : Thread nD τ).loc main_arg4)))) (weight0 (F := Ideal) (m ((c.tc : Thread nD τ).loc main_arg5)))) :=
  (W6_arr m ρ c 2).trans ((region1_array (V5 m ρ) c).trans (by
    rw [show V5 m ρ c main_v46 = W5 m ρ c (Proc.devRef .tc main_v46) from rfl, show V5 m ρ c main_v48 = W5 m ρ c (Proc.devRef .tc main_v48) from rfl, at5_v46, at5_v48]; rfl))
theorem at6_v50 : W6 m ρ c (Proc.devRef .tc main_v50) = (bias0 (F := Ideal) (m ((c.tc : Thread nD τ).loc main_arg6))) := (W6_of_ne m ρ c main_v50 (by decide)).trans (at5_v50 m ρ c)
theorem at6_v5 : W6 m ρ c (Proc.devRef .tc main_v5) = (withLoops (F := Ideal) (edgeRow0 (F := Ideal) (m ((c.tc : Thread nD τ).loc main_arg1)))) := (W6_of_ne m ρ c main_v5 (by decide)).trans (at5_v5 m ρ c)
theorem at6_v6 : W6 m ρ c (Proc.devRef .tc main_v6) = (withLoops (F := Ideal) (edgeRow1 (F := Ideal) (m ((c.tc : Thread nD τ).loc main_arg1)))) := (W6_of_ne m ρ c main_v6 (by decide)).trans (at5_v6 m ρ c)
theorem at6_v30 : W6 m ρ c (Proc.devRef .tc main_v30) = (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) := (W6_of_ne m ρ c main_v30 (by decide)).trans (at5_v30 m ρ c)
theorem at6_arg2 : W6 m ρ c (Proc.devRef .tc main_arg2) = (m ((c.tc : Thread nD τ).loc main_arg2)) := (W6_of_ne m ρ c main_arg2 (by decide)).trans (at5_arg2 m ρ c)
theorem at6_arg5 : W6 m ρ c (Proc.devRef .tc main_arg5) = (m ((c.tc : Thread nD τ).loc main_arg5)) := (W6_of_ne m ρ c main_arg5 (by decide)).trans (at5_arg5 m ρ c)
theorem at6_arg6 : W6 m ρ c (Proc.devRef .tc main_arg6) = (m ((c.tc : Thread nD τ).loc main_arg6)) := (W6_of_ne m ρ c main_arg6 (by decide)).trans (at5_arg6 m ρ c)
theorem at6_arg7 : W6 m ρ c (Proc.devRef .tc main_arg7) = (m ((c.tc : Thread nD τ).loc main_arg7)) := (W6_of_ne m ρ c main_arg7 (by decide)).trans (at5_arg7 m ρ c)
theorem at6_arg8 : W6 m ρ c (Proc.devRef .tc main_arg8) = (m ((c.tc : Thread nD τ).loc main_arg8)) := (W6_of_ne m ρ c main_arg8 (by decide)).trans (at5_arg8 m ρ c)
theorem at7_v66 : W7 m ρ c (Proc.devRef .tc main_v66) = (conv (F := Ideal) (withLoops (F := Ideal) (edgeRow0 (F := Ideal) (m ((c.tc : Thread nD τ).loc main_arg1)))) (withLoops (F := Ideal) (edgeRow1 (F := Ideal) (m ((c.tc : Thread nD τ).loc main_arg1)))) (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) (mm64 (relu (F := Ideal) (conv (F := Ideal) (withLoops (F := Ideal) (edgeRow0 (F := Ideal) (m ((c.tc : Thread nD τ).loc main_arg1)))) (withLoops (F := Ideal) (edgeRow1 (F := Ideal) (m ((c.tc : Thread nD τ).loc main_arg1)))) (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) (mm128 (m ((c.tc : Thread nD τ).loc main_arg0)) (m ((c.tc : Thread nD τ).loc main_arg3))) (m ((c.tc : Thread nD τ).loc main_arg4)))) (weight0 (F := Ideal) (m ((c.tc : Thread nD τ).loc main_arg5)))) (bias0 (F := Ideal) (m ((c.tc : Thread nD τ).loc main_arg6)))) := by
  rw [show W7 m ρ c = StableHlo.after hostOps2 (W6 m ρ c) from rfl, conv2, at6_v5, at6_v6, at6_v30, at6_v51, at6_v50]
theorem at7_v68 : W7 m ρ c (Proc.devRef .tc main_v68) = (weight1 (F := Ideal) (m ((c.tc : Thread nD τ).loc main_arg5))) := by
  rw [show W7 m ρ c = StableHlo.after hostOps2 (W6 m ρ c) from rfl, conv2_weight, at6_arg5]
theorem at7_v70 : W7 m ρ c (Proc.devRef .tc main_v70) = (bias1 (F := Ideal) (m ((c.tc : Thread nD τ).loc main_arg6))) := by
  rw [show W7 m ρ c = StableHlo.after hostOps2 (W6 m ρ c) from rfl, conv2_bias, at6_arg6]
theorem at7_v5 : W7 m ρ c (Proc.devRef .tc main_v5) = (withLoops (F := Ideal) (edgeRow0 (F := Ideal) (m ((c.tc : Thread nD τ).loc main_arg1)))) := by
  rw [show W7 m ρ c = StableHlo.after hostOps2 (W6 m ρ c) from rfl, conv2_v5, at6_v5]
theorem at7_v6 : W7 m ρ c (Proc.devRef .tc main_v6) = (withLoops (F := Ideal) (edgeRow1 (F := Ideal) (m ((c.tc : Thread nD τ).loc main_arg1)))) := by
  rw [show W7 m ρ c = StableHlo.after hostOps2 (W6 m ρ c) from rfl, conv2_v6, at6_v6]
theorem at7_v30 : W7 m ρ c (Proc.devRef .tc main_v30) = (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) := by
  rw [show W7 m ρ c = StableHlo.after hostOps2 (W6 m ρ c) from rfl, conv2_v30, at6_v30]
theorem at7_arg2 : W7 m ρ c (Proc.devRef .tc main_arg2) = (m ((c.tc : Thread nD τ).loc main_arg2)) := by
  rw [show W7 m ρ c = StableHlo.after hostOps2 (W6 m ρ c) from rfl, conv2_arg2, at6_arg2]
theorem at7_arg7 : W7 m ρ c (Proc.devRef .tc main_arg7) = (m ((c.tc : Thread nD τ).loc main_arg7)) := by
  rw [show W7 m ρ c = StableHlo.after hostOps2 (W6 m ρ c) from rfl, conv2_arg7, at6_arg7]
theorem at7_arg8 : W7 m ρ c (Proc.devRef .tc main_arg8) = (m ((c.tc : Thread nD τ).loc main_arg8)) := by
  rw [show W7 m ρ c = StableHlo.after hostOps2 (W6 m ρ c) from rfl, conv2_arg8, at6_arg8]
theorem at8_v71 : W8 m ρ c (Proc.devRef .tc main_v71) = (mm64 (relu (F := Ideal) (conv (F := Ideal) (withLoops (F := Ideal) (edgeRow0 (F := Ideal) (m ((c.tc : Thread nD τ).loc main_arg1)))) (withLoops (F := Ideal) (edgeRow1 (F := Ideal) (m ((c.tc : Thread nD τ).loc main_arg1)))) (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) (mm64 (relu (F := Ideal) (conv (F := Ideal) (withLoops (F := Ideal) (edgeRow0 (F := Ideal) (m ((c.tc : Thread nD τ).loc main_arg1)))) (withLoops (F := Ideal) (edgeRow1 (F := Ideal) (m ((c.tc : Thread nD τ).loc main_arg1)))) (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) (mm128 (m ((c.tc : Thread nD τ).loc main_arg0)) (m ((c.tc : Thread nD τ).loc main_arg3))) (m ((c.tc : Thread nD τ).loc main_arg4)))) (weight0 (F := Ideal) (m ((c.tc : Thread nD τ).loc main_arg5)))) (bias0 (F := Ideal) (m ((c.tc : Thread nD τ).loc main_arg6))))) (weight1 (F := Ideal) (m ((c.tc : Thread nD τ).loc main_arg5)))) :=
  (W8_arr m ρ c 2).trans ((region2_array (V7 m ρ) c).trans (by
    rw [show V7 m ρ c main_v66 = W7 m ρ c (Proc.devRef .tc main_v66) from rfl, show V7 m ρ c main_v68 = W7 m ρ c (Proc.devRef .tc main_v68) from rfl, at7_v66, at7_v68]; rfl))
theorem at8_v70 : W8 m ρ c (Proc.devRef .tc main_v70) = (bias1 (F := Ideal) (m ((c.tc : Thread nD τ).loc main_arg6))) := (W8_of_ne m ρ c main_v70 (by decide)).trans (at7_v70 m ρ c)
theorem at8_v5 : W8 m ρ c (Proc.devRef .tc main_v5) = (withLoops (F := Ideal) (edgeRow0 (F := Ideal) (m ((c.tc : Thread nD τ).loc main_arg1)))) := (W8_of_ne m ρ c main_v5 (by decide)).trans (at7_v5 m ρ c)
theorem at8_v6 : W8 m ρ c (Proc.devRef .tc main_v6) = (withLoops (F := Ideal) (edgeRow1 (F := Ideal) (m ((c.tc : Thread nD τ).loc main_arg1)))) := (W8_of_ne m ρ c main_v6 (by decide)).trans (at7_v6 m ρ c)
theorem at8_v30 : W8 m ρ c (Proc.devRef .tc main_v30) = (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) := (W8_of_ne m ρ c main_v30 (by decide)).trans (at7_v30 m ρ c)
theorem at8_arg2 : W8 m ρ c (Proc.devRef .tc main_arg2) = (m ((c.tc : Thread nD τ).loc main_arg2)) := (W8_of_ne m ρ c main_arg2 (by decide)).trans (at7_arg2 m ρ c)
theorem at8_arg7 : W8 m ρ c (Proc.devRef .tc main_arg7) = (m ((c.tc : Thread nD τ).loc main_arg7)) := (W8_of_ne m ρ c main_arg7 (by decide)).trans (at7_arg7 m ρ c)
theorem at8_arg8 : W8 m ρ c (Proc.devRef .tc main_arg8) = (m ((c.tc : Thread nD τ).loc main_arg8)) := (W8_of_ne m ρ c main_arg8 (by decide)).trans (at7_arg8 m ρ c)
theorem at13_v98 : W13 m ρ c (Proc.devRef .tc main_v98) = (pool (F := Ideal) (m ((c.tc : Thread nD τ).loc main_arg2)) (relu (F := Ideal) (conv (F := Ideal) (withLoops (F := Ideal) (edgeRow0 (F := Ideal) (m ((c.tc : Thread nD τ).loc main_arg1)))) (withLoops (F := Ideal) (edgeRow1 (F := Ideal) (m ((c.tc : Thread nD τ).loc main_arg1)))) (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) (mm64 (relu (F := Ideal) (conv (F := Ideal) (withLoops (F := Ideal) (edgeRow0 (F := Ideal) (m ((c.tc : Thread nD τ).loc main_arg1)))) (withLoops (F := Ideal) (edgeRow1 (F := Ideal) (m ((c.tc : Thread nD τ).loc main_arg1)))) (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) (mm64 (relu (F := Ideal) (conv (F := Ideal) (withLoops (F := Ideal) (edgeRow0 (F := Ideal) (m ((c.tc : Thread nD τ).loc main_arg1)))) (withLoops (F := Ideal) (edgeRow1 (F := Ideal) (m ((c.tc : Thread nD τ).loc main_arg1)))) (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) (mm128 (m ((c.tc : Thread nD τ).loc main_arg0)) (m ((c.tc : Thread nD τ).loc main_arg3))) (m ((c.tc : Thread nD τ).loc main_arg4)))) (weight0 (F := Ideal) (m ((c.tc : Thread nD τ).loc main_arg5)))) (bias0 (F := Ideal) (m ((c.tc : Thread nD τ).loc main_arg6))))) (weight1 (F := Ideal) (m ((c.tc : Thread nD τ).loc main_arg5)))) (bias1 (F := Ideal) (m ((c.tc : Thread nD τ).loc main_arg6)))))) := by
  rw [show W13 m ρ c = StableHlo.after hostOps3_4 (StableHlo.after hostOps3_3 (StableHlo.after hostOps3_2 (StableHlo.after hostOps3_1 (StableHlo.after hostOps3 (W8 m ρ c))))) from rfl, pooled, at8_arg2, at8_v5, at8_v6, at8_v30, at8_v71, at8_v70]
theorem at13_v99 : W13 m ρ c (Proc.devRef .tc main_v99) = (shapeCast S1x64 (m ((c.tc : Thread nD τ).loc main_arg8)) Facts₀.shapeCasts_S64_S1x64) := by
  rw [show W13 m ρ c = StableHlo.after hostOps3_4 (StableHlo.after hostOps3_3 (StableHlo.after hostOps3_2 (StableHlo.after hostOps3_1 (StableHlo.after hostOps3 (W8 m ρ c))))) from rfl, bias_row, at8_arg8]
theorem at13_arg7 : W13 m ρ c (Proc.devRef .tc main_arg7) = (m ((c.tc : Thread nD τ).loc main_arg7)) := by
  rw [show W13 m ρ c = StableHlo.after hostOps3_4 (StableHlo.after hostOps3_3 (StableHlo.after hostOps3_2 (StableHlo.after hostOps3_1 (StableHlo.after hostOps3 (W8 m ρ c))))) from rfl, pooled_arg7, at8_arg7]

/-- The result array after the last region. -/
theorem result_eq : W14 m ρ c (Proc.devRef .tc main_v100) =
    fun i => Cert.LibMatmul.MM ((pool (F := Ideal) (m ((c.tc : Thread nD τ).loc main_arg2)) (relu (F := Ideal) (conv (F := Ideal) (withLoops (F := Ideal) (edgeRow0 (F := Ideal) (m ((c.tc : Thread nD τ).loc main_arg1)))) (withLoops (F := Ideal) (edgeRow1 (F := Ideal) (m ((c.tc : Thread nD τ).loc main_arg1)))) (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) (mm64 (relu (F := Ideal) (conv (F := Ideal) (withLoops (F := Ideal) (edgeRow0 (F := Ideal) (m ((c.tc : Thread nD τ).loc main_arg1)))) (withLoops (F := Ideal) (edgeRow1 (F := Ideal) (m ((c.tc : Thread nD τ).loc main_arg1)))) (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) (mm64 (relu (F := Ideal) (conv (F := Ideal) (withLoops (F := Ideal) (edgeRow0 (F := Ideal) (m ((c.tc : Thread nD τ).loc main_arg1)))) (withLoops (F := Ideal) (edgeRow1 (F := Ideal) (m ((c.tc : Thread nD τ).loc main_arg1)))) (edgeScale (F := Ideal) (withLoops (F := Ideal) (edgeRow0 (F := Ideal) (m ((c.tc : Thread nD τ).loc main_arg1)))) (withLoops (F := Ideal) (edgeRow1 (F := Ideal) (m ((c.tc : Thread nD τ).loc main_arg1))))) (mm128 (m ((c.tc : Thread nD τ).loc main_arg0)) (m ((c.tc : Thread nD τ).loc main_arg3))) (m ((c.tc : Thread nD τ).loc main_arg4)))) (weight0 (F := Ideal) (m ((c.tc : Thread nD τ).loc main_arg5)))) (bias0 (F := Ideal) (m ((c.tc : Thread nD τ).loc main_arg6))))) (weight1 (F := Ideal) (m ((c.tc : Thread nD τ).loc main_arg5)))) (bias1 (F := Ideal) (m ((c.tc : Thread nD τ).loc main_arg6)))))) : S256x64.Idx → EReal) ((m ((c.tc : Thread nD τ).loc main_arg7)) : S64x64.Idx → EReal) i + ((shapeCast S1x64 (m ((c.tc : Thread nD τ).loc main_arg8)) Facts₀.shapeCasts_S64_S1x64) : S1x64.Idx → EReal) (ix2 0 (i 1)) :=
  (W14_arr m ρ c 3).trans ((region3_array (V13 m ρ) c).trans (by
    rw [show V13 m ρ c main_v98 = W13 m ρ c (Proc.devRef .tc main_v98) from rfl, show V13 m ρ c main_arg7 = W13 m ρ c (Proc.devRef .tc main_arg7) from rfl,
      show V13 m ρ c main_v99 = W13 m ρ c (Proc.devRef .tc main_v99) from rfl, at13_v98, at13_arg7, at13_v99]))

end Cert.Gcn.KVal

end
-- ==== Proof.RefVal.lean ====
/-
  The reference's result as the network of the argument arrays.  Its 210 host operations are read in three
  stages, one per graph convolution; a stage is read over ANY contents `U` of the buffers it starts from,
  so the stages compose by substitution.  The second and third convolutions rebuild the extended edge lists
  from the first stage's two edge rows, and recompute the degrees and the edge weights: the same functions
  of the same rows, hence the same values.
-/
import proofs.«121222_j88149908783507_1_alg».proof.Proof.RefRun
import proofs.«121222_j88149908783507_1_alg».proof.Proof.Spec

set_option maxRecDepth 8192

noncomputable section

namespace Cert.Gcn.Ref

open Cert.ReferenceIdeal Cert.ReferenceIdeal.RunP Cert.Gcn
open Idealize.ShloMosaic Idealize.ShloMosaic.TcCoe Idealize.SL.Sem Idealize.ShloMosaic.StableHlo

variable {F : FTy → Type} [FloatOps F]

/-- Operations run one list after the other are the fold over the second list of the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

variable (U : Valuation τ sig (Elt F))

/-! ## The first convolution -/

set_option maxHeartbeats 4000000 in
/-- After the first stage the hidden state is the relu of the first convolution of `x · W1`. -/
theorem stageA_hidden : after opsA U (Proc.devRef .tc main_v47) =
    relu (conv (withLoops (edgeRow0 (U (Proc.devRef .tc main_arg1)))) (withLoops (edgeRow1 (U (Proc.devRef .tc main_arg1))))
      (edgeScale (withLoops (edgeRow0 (U (Proc.devRef .tc main_arg1)))) (withLoops (edgeRow1 (U (Proc.devRef .tc main_arg1)))))
      (dot128 (U (Proc.devRef .tc main_arg0)) (U (Proc.devRef .tc main_arg3))) (U (Proc.devRef .tc main_arg4))) := by
  read_after
  rfl

/-- The first stage leaves the two edge rows for the later stages. -/
theorem stageA_v1 : after opsA U (Proc.devRef .tc main_v1) = edgeRow0 (U (Proc.devRef .tc main_arg1)) := by read_after <;> rfl
theorem stageA_arg0 : after opsA U (Proc.devRef .tc main_arg0) = U (Proc.devRef .tc main_arg0) := by read_after <;> rfl
theorem stageA_arg1 : after opsA U (Proc.devRef .tc main_arg1) = U (Proc.devRef .tc main_arg1) := by read_after <;> rfl
theorem stageA_arg2 : after opsA U (Proc.devRef .tc main_arg2) = U (Proc.devRef .tc main_arg2) := by read_after <;> rfl
theorem stageA_arg3 : after opsA U (Proc.devRef .tc main_arg3) = U (Proc.devRef .tc main_arg3) := by read_after <;> rfl
theorem stageA_arg4 : after opsA U (Proc.devRef .tc main_arg4) = U (Proc.devRef .tc main_arg4) := by read_after <;> rfl
theorem stageA_arg5 : after opsA U (Proc.devRef .tc main_arg5) = U (Proc.devRef .tc main_arg5) := by read_after <;> rfl
theorem stageA_arg6 : after opsA U (Proc.devRef .tc main_arg6) = U (Proc.devRef .tc main_arg6) := by read_after <;> rfl
theorem stageA_arg7 : after opsA U (Proc.devRef .tc main_arg7) = U (Proc.devRef .tc main_arg7) := by read_after <;> rfl
theorem stageA_arg8 : after opsA U (Proc.devRef .tc main_arg8) = U (Proc.devRef .tc main_arg8) := by read_after <;> rfl
theorem stageA_v3 : after opsA U (Proc.devRef .tc main_v3) = edgeRow1 (U (Proc.devRef .tc main_arg1)) := by read_after <;> rfl

/-! ## The second convolution -/

set_option maxHeartbeats 4000000 in
/-- After the second stage the hidden state is the relu of the second convolution of the first state times the
    first hidden weights. -/
theorem stageB_hidden : after opsB U (Proc.devRef .tc main_v95) =
    relu (conv (withLoops (U (Proc.devRef .tc main_v1))) (withLoops (U (Proc.devRef .tc main_v3)))
      (edgeScale (withLoops (U (Proc.devRef .tc main_v1))) (withLoops (U (Proc.devRef .tc main_v3))))
      (dot64 (U (Proc.devRef .tc main_v47)) (weight0 (U (Proc.devRef .tc main_arg5)))) (bias0 (U (Proc.devRef .tc main_arg6)))) := by
  read_after
  rfl
theorem stageB_arg0 : after opsB U (Proc.devRef .tc main_arg0) = U (Proc.devRef .tc main_arg0) := by read_after <;> rfl
theorem stageB_arg1 : after opsB U (Proc.devRef .tc main_arg1) = U (Proc.devRef .tc main_arg1) := by read_after <;> rfl
theorem stageB_arg2 : after opsB U (Proc.devRef .tc main_arg2) = U (Proc.devRef .tc main_arg2) := by read_after <;> rfl
theorem stageB_arg3 : after opsB U (Proc.devRef .tc main_arg3) = U (Proc.devRef .tc main_arg3) := by read_after <;> rfl
theorem stageB_arg4 : after opsB U (Proc.devRef .tc main_arg4) = U (Proc.devRef .tc main_arg4) := by read_after <;> rfl
theorem stageB_arg5 : after opsB U (Proc.devRef .tc main_arg5) = U (Proc.devRef .tc main_arg5) := by read_after <;> rfl
theorem stageB_arg6 : after opsB U (Proc.devRef .tc main_arg6) = U (Proc.devRef .tc main_arg6) := by read_after <;> rfl
theorem stageB_arg7 : after opsB U (Proc.devRef .tc main_arg7) = U (Proc.devRef .tc main_arg7) := by read_after <;> rfl
theorem stageB_arg8 : after opsB U (Proc.devRef .tc main_arg8) = U (Proc.devRef .tc main_arg8) := by read_after <;> rfl
theorem stageB_v1 : after opsB U (Proc.devRef .tc main_v1) = U (Proc.devRef .tc main_v1) := by read_after <;> rfl
theorem stageB_v3 : after opsB U (Proc.devRef .tc main_v3) = U (Proc.devRef .tc main_v3) := by read_after <;> rfl

/-! ## The third convolution, the pool and the last layer -/

set_option maxHeartbeats 4000000 in
/-- The result: the pooled third hidden state times the last weights, plus the last bias. -/
theorem stageC_out : after opsC U (Proc.devRef .tc main_v158) =
    lastLayer (pool (U (Proc.devRef .tc main_arg2)) (relu (conv (withLoops (U (Proc.devRef .tc main_v1))) (withLoops (U (Proc.devRef .tc main_v3)))
      (edgeScale (withLoops (U (Proc.devRef .tc main_v1))) (withLoops (U (Proc.devRef .tc main_v3))))
        (dot64 (U (Proc.devRef .tc main_v95)) (weight1 (U (Proc.devRef .tc main_arg5)))) (bias1 (U (Proc.devRef .tc main_arg6))))))
      (U (Proc.devRef .tc main_arg7)) (U (Proc.devRef .tc main_arg8)) := by
  read_after
  rfl

theorem stageC_arg0 : after opsC U (Proc.devRef .tc main_arg0) = U (Proc.devRef .tc main_arg0) := by read_after <;> rfl
theorem stageC_arg1 : after opsC U (Proc.devRef .tc main_arg1) = U (Proc.devRef .tc main_arg1) := by read_after <;> rfl
theorem stageC_arg2 : after opsC U (Proc.devRef .tc main_arg2) = U (Proc.devRef .tc main_arg2) := by read_after <;> rfl
theorem stageC_arg3 : after opsC U (Proc.devRef .tc main_arg3) = U (Proc.devRef .tc main_arg3) := by read_after <;> rfl
theorem stageC_arg4 : after opsC U (Proc.devRef .tc main_arg4) = U (Proc.devRef .tc main_arg4) := by read_after <;> rfl
theorem stageC_arg5 : after opsC U (Proc.devRef .tc main_arg5) = U (Proc.devRef .tc main_arg5) := by read_after <;> rfl
theorem stageC_arg6 : after opsC U (Proc.devRef .tc main_arg6) = U (Proc.devRef .tc main_arg6) := by read_after <;> rfl
theorem stageC_arg7 : after opsC U (Proc.devRef .tc main_arg7) = U (Proc.devRef .tc main_arg7) := by read_after <;> rfl
theorem stageC_arg8 : after opsC U (Proc.devRef .tc main_arg8) = U (Proc.devRef .tc main_arg8) := by read_after <;> rfl

/-! ## The whole run -/

/-- The reference's result buffer after all of @main is the network of the launch contents of its arguments. -/
theorem result_eq (m : (ℓ : Loc nD τ sig) → Buf (Elt F) ℓ) (c : Dev nD) :
    after ops (launchContents m c) (Proc.devRef .tc main_v158) =
      refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  show after (opsA ++ (opsB ++ opsC)) (launchContents m c) (Proc.devRef .tc main_v158) = _
  rw [after_append, after_append, stageC_out, stageB_hidden, stageB_v1, stageB_v3, stageB_arg2, stageB_arg5, stageB_arg6, stageB_arg7, stageB_arg8,
    stageA_hidden, stageA_v1, stageA_v3, stageA_arg2, stageA_arg5, stageA_arg6, stageA_arg7, stageA_arg8]
  rfl

/-- No operation writes an argument: the fold leaves each argument buffer at its launch contents. -/
theorem args_kept (m : (ℓ : Loc nD τ sig) → Buf (Elt F) ℓ) (c : Dev nD) :
    after ops (launchContents m c) (Proc.devRef .tc main_arg0) = m ((c.tc : Thread nD τ).loc main_arg0) ∧
    after ops (launchContents m c) (Proc.devRef .tc main_arg1) = m ((c.tc : Thread nD τ).loc main_arg1) ∧
    after ops (launchContents m c) (Proc.devRef .tc main_arg2) = m ((c.tc : Thread nD τ).loc main_arg2) ∧
    after ops (launchContents m c) (Proc.devRef .tc main_arg3) = m ((c.tc : Thread nD τ).loc main_arg3) ∧
    after ops (launchContents m c) (Proc.devRef .tc main_arg4) = m ((c.tc : Thread nD τ).loc main_arg4) ∧
    after ops (launchContents m c) (Proc.devRef .tc main_arg5) = m ((c.tc : Thread nD τ).loc main_arg5) ∧
    after ops (launchContents m c) (Proc.devRef .tc main_arg6) = m ((c.tc : Thread nD τ).loc main_arg6) ∧
    after ops (launchContents m c) (Proc.devRef .tc main_arg7) = m ((c.tc : Thread nD τ).loc main_arg7) ∧
    after ops (launchContents m c) (Proc.devRef .tc main_arg8) = m ((c.tc : Thread nD τ).loc main_arg8) := by
  refine ⟨?_, ?_, ?_, ?_, ?_, ?_, ?_, ?_, ?_⟩ <;> show after (opsA ++ (opsB ++ opsC)) (launchContents m c) _ = _ <;> rw [after_append, after_append]
  · rw [stageC_arg0, stageB_arg0, stageA_arg0]
  · rw [stageC_arg1, stageB_arg1, stageA_arg1]
  · rw [stageC_arg2, stageB_arg2, stageA_arg2]
  · rw [stageC_arg3, stageB_arg3, stageA_arg3]
  · rw [stageC_arg4, stageB_arg4, stageA_arg4]
  · rw [stageC_arg5, stageB_arg5, stageA_arg5]
  · rw [stageC_arg6, stageB_arg6, stageA_arg6]
  · rw [stageC_arg7, stageB_arg7, stageA_arg7]
  · rw [stageC_arg8, stageB_arg8, stageA_arg8]

end Cert.Gcn.Ref

end
-- ==== Proof.Bridge.lean ====
/-
  The host's matrix products and last linear layer, read index by index at the ideal values.

  The host's dot_general with the plain dimension numbers (contract the left operand's axis 1 with the right
  operand's axis 0, no batch axis) is the matrix product: at (p, q) the sum over k of x(p, k) · w(k, q).  The last
  layer adds to such a product the bias vector laid out as one row and repeated down the rows; at (p, q) that
  summand is the bias at q, which is also what the bias reshaped to one row holds at (0, q).
-/
import proofs.«121222_j88149908783507_1_alg».proof.Proof.Spec
import proofs.«121222_j88149908783507_1_alg».proof.Proof.LibMatmul
import proofs.«121222_j88149908783507_1_alg».proof.Proof.Gen.ReferenceIdeal
import proofs.«121222_j88149908783507_1_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Bridge

open Cert.ReferenceIdeal Cert.ReferenceIdeal.Facts₀ Cert.ReferenceIdeal.Facts
open Idealize.ShloMosaic Idealize.ShloMosaic.TcCoe Idealize.SL.Sem Idealize.ShloMosaic.ValueIdx

/-- The host's product of a [100000,128] array and a [128,64] array is the matrix product. -/
theorem dot128_eq (x : (⟨S100000x128, .f32⟩ : BufTy).Contents (Elt Ideal)) (w : (⟨S128x64, .f32⟩ : BufTy).Contents (Elt Ideal)) :
    Cert.Gcn.dot128 (F := Ideal) x w = Cert.LibMatmul.MM (x : (⟨2, ![100000, 128]⟩ : Shape).Idx → EReal) (w : (⟨2, ![128, 64]⟩ : Shape).Idx → EReal) := by
  unfold Cert.Gcn.dot128 Host.dotGeneral
  exact Cert.LibMatmul.dotGeneral_eq dot_S100000x128_S128x64_S100000x64_1_0_0_1_n_n rfl rfl rfl rfl rfl rfl none _ _ _

/-- The host's product of a [100000,64] array and a [64,64] array is the matrix product. -/
theorem dot64_eq (h : (⟨S100000x64, .f32⟩ : BufTy).Contents (Elt Ideal)) (w : (⟨S64x64, .f32⟩ : BufTy).Contents (Elt Ideal)) :
    Cert.Gcn.dot64 (F := Ideal) h w = Cert.LibMatmul.MM (h : (⟨2, ![100000, 64]⟩ : Shape).Idx → EReal) (w : (⟨2, ![64, 64]⟩ : Shape).Idx → EReal) := by
  unfold Cert.Gcn.dot64 Host.dotGeneral
  exact Cert.LibMatmul.dotGeneral_eq dot_S100000x64_S64x64_S100000x64_1_0_0_1_n_n rfl rfl rfl rfl rfl rfl none _ _ _

/-- A vector laid out as one row and repeated down 256 rows holds, at (p, q), the vector's entry q. -/
theorem bias_rows_apply (b : (⟨S64, .f32⟩ : BufTy).Contents (Elt Ideal)) (i : S256x64.Idx) :
    (broadcastInDim S256x64 ![0, 1] bcast_S1x64_S256x64_0_1 (broadcastInDim S1x64 ![1] bcast_S64_S1x64_1 b) : S256x64.Idx → EReal) i
      = (b : S64.Idx → EReal) (ix1 (i 1)) := by
  refine (broadcastInDim_apply ![0, 1] bcast_S1x64_S256x64_0_1 _ i (ix2 0 (i 1)) (fun a => by
    match a with
    | ⟨0, _⟩ => rfl
    | ⟨1, _⟩ => rfl)).trans ?_
  exact broadcastInDim_apply ![1] bcast_S64_S1x64_1 b (ix2 0 (i 1)) (ix1 (i 1)) (fun a => by
    match a with
    | ⟨0, _⟩ => rfl)

/-- The last layer on the host, index by index: the matrix product plus the bias, reshaped to one row, at the
    index's column. -/
theorem lastLayer_eq (p : (⟨S256x64, .f32⟩ : BufTy).Contents (Elt Ideal)) (linW : (⟨S64x64, .f32⟩ : BufTy).Contents (Elt Ideal))
    (linB : (⟨S64, .f32⟩ : BufTy).Contents (Elt Ideal)) :
    Cert.Gcn.lastLayer (F := Ideal) p linW linB
      = fun i => Cert.LibMatmul.MM (p : (⟨2, ![256, 64]⟩ : Shape).Idx → EReal) (linW : (⟨2, ![64, 64]⟩ : Shape).Idx → EReal) i
          + (shapeCast Cert.KernelIdeal.S1x64 linB Cert.KernelIdeal.Facts₀.shapeCasts_S64_S1x64 : Cert.KernelIdeal.S1x64.Idx → EReal) (ix2 0 (i 1)) := by
  funext i
  unfold Cert.Gcn.lastLayer Host.dotGeneral
  rw [addf_apply, Cert.LibMatmul.dotGeneral_eq dot_S256x64_S64x64_S256x64_1_0_0_1_n_n rfl rfl rfl rfl rfl rfl none _ p linW, bias_rows_apply]
  refine congrArg (Cert.LibMatmul.MM (p : (⟨2, ![256, 64]⟩ : Shape).Idx → EReal) (linW : (⟨2, ![64, 64]⟩ : Shape).Idx → EReal) i + ·) ?_
  exact (shapeCast_a_1a_apply (linB : (⟨1, ![64]⟩ : Shape).Idx → EReal) Cert.KernelIdeal.Facts₀.shapeCasts_S64_S1x64 0 (i 1)).symm

end Cert.Gcn.Bridge

end
-- ==== Proof.lean ====
/-
  The certificate of a three-layer graph-convolution network with a mean pool and a last linear layer.

  The kernel and the reference compute the same network of their nine argument arrays.  Both extend the edge
  list by self loops, weight every edge by deg^(-1/2) of its two ends, and in each of three layers multiply
  the node features by the layer's weights, gather the products at the sources, scale, add up at the targets
  and add the bias, with a relu between layers; both then average the nodes of each graph and apply the last
  linear layer.  They differ in three ways, none of which changes a value on the extended reals: the kernel
  computes the degrees and edge weights once where the reference computes them in every layer (the same
  functions of the same edge rows); the kernel's matrix products run in a pipelined region over blocks of
  5000 rows (a block of a product is the product of the block, and the blocks fill the array), their
  operands passed through a narrower float format (the identity on the ideal values) and the relu of the
  previous layer taken inside the region (the same pointwise maximum); and the last bias is added inside
  the last region from a one-row copy instead of being broadcast on the host.  No step uses that the inputs
  are finite: sums and products are only regrouped by rows, never distributed.
-/
import proofs.«121222_j88149908783507_1_alg».proof.Defs
import proofs.«121222_j88149908783507_1_alg».proof.Proof.Gen.Kernel
import proofs.«121222_j88149908783507_1_alg».proof.Proof.Gen.Kernel.Skeleton
import proofs.«121222_j88149908783507_1_alg».proof.Proof.Gen.Kernel.Launch
import proofs.«121222_j88149908783507_1_alg».proof.Proof.Gen.Kernel.Points
import proofs.«121222_j88149908783507_1_alg».proof.Proof.Gen.Kernel.Frame
import proofs.«121222_j88149908783507_1_alg».proof.Proof.Gen.KernelIdeal
import proofs.«121222_j88149908783507_1_alg».proof.Proof.Gen.KernelIdeal.Skeleton
import proofs.«121222_j88149908783507_1_alg».proof.Proof.Gen.KernelIdeal.Launch
import proofs.«121222_j88149908783507_1_alg».proof.Proof.Gen.KernelIdeal.Points
import proofs.«121222_j88149908783507_1_alg».proof.Proof.Gen.KernelIdeal.Frame
import proofs.«121222_j88149908783507_1_alg».proof.Proof.Gen.ReferenceIdeal
import proofs.«121222_j88149908783507_1_alg».proof.Proof.Gen.Pre_finite_inputs
import proofs.«121222_j88149908783507_1_alg».proof.Proof.KernelRun
import proofs.«121222_j88149908783507_1_alg».proof.Proof.KernelVal
import proofs.«121222_j88149908783507_1_alg».proof.Proof.RefVal
import proofs.«121222_j88149908783507_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-! ## The two networks are one -/

/-- The three convolutions give the same hidden state whether the matrix products are the host's or the
    products computed block by block: both are the sum over the contracted axis. -/
theorem hidden_eq (x : (⟨Cert.ReferenceIdeal.S100000x128, .f32⟩ : BufTy).Contents (Elt Ideal)) (ei : (⟨Cert.ReferenceIdeal.S2x1600000, .i32⟩ : BufTy).Contents (Elt Ideal))
    (W1 : (⟨Cert.ReferenceIdeal.S128x64, .f32⟩ : BufTy).Contents (Elt Ideal)) (b1 : (⟨Cert.ReferenceIdeal.S64, .f32⟩ : BufTy).Contents (Elt Ideal))
    (Ws : (⟨Cert.ReferenceIdeal.S2x64x64, .f32⟩ : BufTy).Contents (Elt Ideal)) (bs : (⟨Cert.ReferenceIdeal.S2x64, .f32⟩ : BufTy).Contents (Elt Ideal)) :
    Cert.Gcn.hidden (F := Ideal) Cert.Gcn.dot128 Cert.Gcn.dot64 x ei W1 b1 Ws bs
      = Cert.Gcn.hidden (F := Ideal) Cert.Gcn.KVal.mm128 Cert.Gcn.KVal.mm64 x ei W1 b1 Ws bs := by
  have h1 : (Cert.Gcn.dot128 (F := Ideal)) = Cert.Gcn.KVal.mm128 := funext fun a => funext fun b => Cert.Gcn.Bridge.dot128_eq a b
  have h2 : (Cert.Gcn.dot64 (F := Ideal)) = Cert.Gcn.KVal.mm64 := funext fun a => funext fun b => Cert.Gcn.Bridge.dot64_eq a b
  rw [h1, h2]

/-- From memories that agree on the arguments, the reference's result buffer after its run and the kernel's
    after its run hold the same array. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    StableHlo.after Cert.ReferenceIdeal.RunP.ops (StableHlo.launchContents m' c) (Proc.devRef .tc Cert.ReferenceIdeal.main_v158)
      = Cert.KernelIdeal.Gen.W14 m ρ c (Proc.devRef .tc Cert.KernelIdeal.main_v100) := by
  obtain ⟨h0, h1, h2, h3, h4, h5, h6, h7, h8⟩ := hagree
  rw [Cert.Gcn.Ref.result_eq m' c, Cert.Gcn.KVal.result_eq m ρ c, h0, h1, h2, h3, h4, h5, h6, h7, h8]
  unfold Cert.Gcn.refOut
  rw [Cert.Gcn.Bridge.lastLayer_eq, hidden_eq]
  rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference is straight-line host code: it runs, and no operation writes an argument. -/
theorem frame_ri : Cert.frame_ReferenceIdeal := fun m ρ _ =>
  (θ_run Cert.ReferenceIdeal.defs _ _).mono (fun r h c => by
      obtain ⟨a0, a1, a2, a3, a4, a5, a6, a7, a8⟩ := Cert.Gcn.Ref.args_kept m c
      exact ⟨(h c Cert.ReferenceIdeal.main_arg0).trans a0, (h c Cert.ReferenceIdeal.main_arg1).trans a1, (h c Cert.ReferenceIdeal.main_arg2).trans a2, (h c Cert.ReferenceIdeal.main_arg3).trans a3,
        (h c Cert.ReferenceIdeal.main_arg4).trans a4, (h c Cert.ReferenceIdeal.main_arg5).trans a5, (h c Cert.ReferenceIdeal.main_arg6).trans a6, (h c Cert.ReferenceIdeal.main_arg7).trans a7,
        (h c Cert.ReferenceIdeal.main_arg8).trans a8⟩)
    (Cert.ReferenceIdeal.RunP.run (F := Ideal) m ρ)

/-- The idealization rewrote no operation. -/
theorem preserves : Cert.preserves_Kernel_KernelIdeal := trivial

/-- Both idealized programs run, and end with the same result array. -/
theorem algebraic : Cert.algebraic_KernelIdeal_ReferenceIdeal := by
  intro m ρ m' ρ' _ hagree
  refine ⟨fun c => Cert.KernelIdeal.Gen.W14 m ρ c (Proc.devRef .tc Cert.KernelIdeal.main_v100), Cert.KernelIdeal.ResultRun.run_result m ρ, ?_⟩
  refine (θ_run Cert.ReferenceIdeal.defs _ _).mono (fun r h c => ?_) (Cert.ReferenceIdeal.RunP.run (F := Ideal) m' ρ')
  obtain ⟨a0, a1, a2, a3, a4, a5, a6, a7, a8⟩ := Cert.Gcn.Ref.args_kept m' c
  exact ⟨(h c Cert.ReferenceIdeal.main_v158).trans (result_eq m ρ m' c (hagree c)),
    (h c Cert.ReferenceIdeal.main_arg0).trans a0, (h c Cert.ReferenceIdeal.main_arg1).trans a1, (h c Cert.ReferenceIdeal.main_arg2).trans a2, (h c Cert.ReferenceIdeal.main_arg3).trans a3,
    (h c Cert.ReferenceIdeal.main_arg4).trans a4, (h c Cert.ReferenceIdeal.main_arg5).trans a5, (h c Cert.ReferenceIdeal.main_arg6).trans a6, (h c Cert.ReferenceIdeal.main_arg7).trans a7,
    (h c Cert.ReferenceIdeal.main_arg8).trans a8⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
